-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x16 .f32) (main_arg3 : FVec F S16 .f32) (main_arg4 : FVec F S16x1 .f32) (main_arg5 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg2
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x16 : Shape := ⟨2, ![100000, 16]⟩
abbrev S4000x256 : Shape := ⟨2, ![4000, 256]⟩
abbrev S4000x1 : Shape := ⟨2, ![4000, 1]⟩
abbrev S4000x16 : Shape := ⟨2, ![4000, 16]⟩
abbrev S3300000x16 : Shape := ⟨2, ![3300000, 16]⟩
abbrev S1x16 : Shape := ⟨2, ![1, 16]⟩
abbrev S5000x16 : Shape := ⟨2, ![5000, 16]⟩
abbrev S5000x1 : Shape := ⟨2, ![5000, 1]⟩
abbrev S1x1 : Shape := ⟨2, ![1, 1]⟩

abbrev nBuf : Space → Nat
  | .hbm => 61
  | .vmem => 15
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x16, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000x16, .f32⟩
  | .hbm, ⟨38, _⟩ => ⟨S_, .f32⟩
  | .hbm, ⟨39, _⟩ => ⟨S100000x16, .f32⟩
  | .hbm, ⟨40, _⟩ => ⟨S3300000x1, .i32⟩
  | .hbm, ⟨41, _⟩ => ⟨S100000x16, .f32⟩
  | .hbm, ⟨42, _⟩ => ⟨S1x16, .f32⟩
  | .hbm, ⟨43, _⟩ => ⟨S100000x1, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000x1, .f32⟩
  | .hbm, ⟨53, _⟩ => ⟨S_, .f32⟩
  | .hbm, ⟨54, _⟩ => ⟨S100000x1, .f32⟩
  | .hbm, ⟨55, _⟩ => ⟨S3300000x1, .i32⟩
  | .hbm, ⟨56, _⟩ => ⟨S100000x1, .f32⟩
  | .hbm, ⟨57, _⟩ => ⟨S100000x1, .f32⟩
  | .hbm, ⟨58, _⟩ => ⟨S1x1, .f32⟩
  | .hbm, ⟨59, _⟩ => ⟨S100000x1, .f32⟩
  | .hbm, ⟨60, _⟩ => ⟨S100000x1, .f32⟩
  | .local _ .vmem, ⟨0, _⟩ => ⟨S4000x256, .f32⟩
  | .local _ .vmem, ⟨1, _⟩ => ⟨S4000x256, .f32⟩
  | .local _ .vmem, ⟨2, _⟩ => ⟨S256x16, .f32⟩
  | .local _ .vmem, ⟨3, _⟩ => ⟨S4000x1, .f32⟩
  | .local _ .vmem, ⟨4, _⟩ => ⟨S4000x1, .f32⟩
  | .local _ .vmem, ⟨5, _⟩ => ⟨S4000x16, .f32⟩
  | .local _ .vmem, ⟨6, _⟩ => ⟨S4000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S16x1, .f32⟩
  | .local _ .vmem, ⟨13, _⟩ => ⟨S5000x1, .f32⟩
  | .local _ .vmem, ⟨14, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x16 : S4000x1.Broadcasts S4000x16
  inb_S4000x16_S4000x16_0_0 : ∀ a, (![0, 0] : Fin 2 → Nat) a + S4000x16.size a ≤ S4000x16.size a
  h_S4000x16 : 0 < S4000x16.numel
  bcast_S_S100000x16 : S_.BroadcastsInDim S100000x16 (![] : Fin 0 → Fin S100000x16.rank)
  shapeCasts_S16_S1x16 : S16.ShapeCasts S1x16
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S5000x1_S5000x16 : S5000x1.Broadcasts S5000x16
  broadcasts_S1x16_S5000x16 : S1x16.Broadcasts S5000x16
  inb_S16x1_S16x1_0_0 : ∀ a, (![0, 0] : Fin 2 → Nat) a + S16x1.size a ≤ S16x1.size a
  h_S16x1 : 0 < S16x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  dot_S4000x256_S256x16_S4000x16_1_0_0_1_n_n_wf : DotDims.WF S4000x256 S256x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x1_S5000x1_1_0_0_1_n_n_wf : DotDims.WF S5000x16 S16x1 S5000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x16.size a ≤ S100000x16.size a
  hwx0_3 : ∀ i : grid0.Coords, EltTy.bits .f32 = 32 ∨ (Rect.block (s := S100000x16) S4000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x1.size a ≤ S16x1.size a
  hwx1_3 : ∀ i : grid1.Coords, EltTy.bits .f32 = 32 ∨ (Rect.block (s := S16x1) S16x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S4000x256_S256x16_S4000x16_1_0_0_1_n_n : DotDims S4000x256 S256x16 S4000x16 where
  lhsContracting := [1]
  rhsContracting := [0]
  lhsNonContracting := [0]
  rhsNonContracting := [1]
  lhsBatch := []
  rhsBatch := []
  wf := dot_S4000x256_S256x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x16, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x1, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000, .f32⟩
  | .hbm, ⟨88, _⟩ => ⟨S3300000, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000x1, .f32⟩
  | .hbm, ⟨98, _⟩ => ⟨S3300000x1, .f32⟩
  | .hbm, ⟨99, _⟩ => ⟨S3300000x1, .f32⟩
  | .hbm, ⟨100, _⟩ => ⟨S_, .f32⟩
  | .hbm, ⟨101, _⟩ => ⟨S100000x1, .f32⟩
  | .hbm, ⟨102, _⟩ => ⟨S3300000x1, .i32⟩
  | .hbm, ⟨103, _⟩ => ⟨S100000x1, .f32⟩
  | .hbm, ⟨104, _⟩ => ⟨S1x1, .f32⟩
  | .hbm, ⟨105, _⟩ => ⟨S100000x1, .f32⟩
  | .hbm, ⟨106, _⟩ => ⟨S100000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  dot_S100000x256_S256x16_S100000x16_1_0_0_1_n_n_wf : DotDims.WF S100000x256 S256x16 S100000x16 [1] [0] [0] [1] [] []
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.KRun.lean ====
/-
  The kernel's run with its result named.

  The program is seven segments: three stretches of host operations, the first kernel region, a stretch, the second
  region, a last stretch. The contents of every buffer at each boundary fold through the segments from the launch memory;
  `W7` is the last boundary's. Every weakly fair execution terminates, nothing faulting, with every unscoped buffer at
  `W7`: in particular the result array, which the frame claim does not mention, and the six argument arrays, which walk
  back through the fold to their launch contents.
-/
import proofs.«106833_j76888504533336_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result array at the last
    boundary's contents and the argument arrays as launched. -/
theorem run_named : θ_run defs (onTc (τ := τ) (main (F := F))) ⟨m, fun _ => 0, ρ⟩ (fun r => ∀ c : Dev nD,
      r.2.mem ((c.tc : Thread nD τ).loc main_v42) = W7 m ρ c (Proc.devRef .tc main_v42)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v42 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.KRun

end
-- ==== Proof.LibGcnFold.lean ====
/-
  Folding a symmetric degree normalisation out of a sum over edges, on the extended reals.

  A graph convolution scales the message of edge `e` by `d (src e) · d (dst e)` and sums the messages over the edges
  that arrive at a node `p`. On those edges `d (dst e)` is the one number `c = d p`, so it can be taken out of the sum:
  `∑ t e · (d e · c) = c · ∑ t e · d e`. On the extended reals a product distributes over a sum only under a
  condition; here the factor is a nonnegative finite number (a reciprocal square root of a count, or zero), and for such
  a factor it does, whatever the summands are. No finiteness of the messages is needed.
-/
import Mathlib.Data.EReal.Operations
import Idealize.ShloMosaic.PureOps.Ideal

noncomputable section

namespace Cert.GcnFold

open Idealize.ShloMosaic

variable {ι : Type}

/-- A nonnegative finite factor distributes over a finite sum of extended reals. -/
theorem mul_sum (s : Finset ι) (c : EReal) (h0 : 0 ≤ c) (ht : c ≠ ⊤) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top h0 ht, ih]

/-- THE FOLD: the factor `c` common to the edges of the sum, taken out of it. The sums start from zero, as an
    accumulating scatter into a zero array reads. -/
theorem fold_out (s : Finset ι) (c : EReal) (h0 : 0 ≤ c) (ht : c ≠ ⊤) (t d d' : ι → EReal)
    (hd : ∀ e ∈ s, d' e = c) :
    c * (0 + ∑ e ∈ s, t e * d e) = 0 + ∑ e ∈ s, t e * (d e * d' e) := by
  rw [zero_add, zero_add, mul_sum s c h0 ht]
  refine Finset.sum_congr rfl fun e he => ?_
  rw [hd e he, mul_left_comm, mul_comm c (d e)]

/-- A guarded reciprocal square root — `1/√x` where `x > 0`, zero elsewhere — is a nonnegative finite number for every
    extended real `x`: at `+∞` the reciprocal square root is `0`, and at a positive real it is a positive real. -/
theorem guarded_rsqrt (x : EReal) :
    0 ≤ Scalar.select (Ideal.cmp .ogt x 0) (Ideal.rsqrt x) (0 : EReal) ∧
      Scalar.select (Ideal.cmp .ogt x 0) (Ideal.rsqrt x) (0 : EReal) ≠ ⊤ := by
  unfold Scalar.select Ideal.cmp
  by_cases h : (0 : EReal) < x
  · have h1 : BitVec.ofBool (decide ((0 : EReal) < x)) = 1 := by rw [decide_eq_true h]; rfl
    dsimp only
    rw [if_pos h1]
    induction x using EReal.rec with
    | bot => exact absurd h (by simp)
    | top => rw [Ideal.rsqrt_top]; exact ⟨le_refl 0, EReal.zero_ne_top⟩
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · have h1 : ¬ BitVec.ofBool (decide ((0 : EReal) < x)) = 1 := by rw [decide_eq_false h]; decide
    dsimp only
    rw [if_neg h1]
    exact ⟨le_refl 0, EReal.zero_ne_top⟩

end Cert.GcnFold

end
-- ==== Proof.EdgeTerms.lean ====
/-
  The edge list and the degree factor, as the host operations in front of both programs compute them.

  `edge_index` is two rows of 3200000 integers. Each row is sliced out, flattened, and followed by the identity vector
  of the 100000 nodes (one self loop per node): `srcOf` from row 0, `dstOf` from row 1. The degree of a node counts the
  edges that arrive at it: an accumulating scatter of ones into zeros at `dst` (`degOf`). The degree factor is the
  reciprocal square root of the degree where the degree is positive and zero elsewhere (`disOf`); whatever the degree
  is, that is a nonnegative finite number (`disOf_ok`).
-/
import proofs.«106833_j76888504533336_2_alg».proof.KernelIdeal
import proofs.«106833_j76888504533336_2_alg».proof.Proof.Gen.KernelIdeal
import proofs.«106833_j76888504533336_2_alg».proof.Proof.LibGcnFold
import Idealize.ShloMosaic.PureOps.Ideal.Laws
import Idealize.ShloMosaic.Lib.ValueIdx

noncomputable section

namespace Cert.KernelIdeal.Edges

open Cert.KernelIdeal Cert.KernelIdeal.Facts₀ Idealize.ShloMosaic Idealize.ShloMosaic.ValueIdx

/-- The sources of the edges: row 0 of the edge index, then the nodes themselves. -/
def srcOf (a1 : IVec S2x3200000 32) : IVec S3300000 32 :=
  concatenate S3300000 0
    [⟨S3200000, shapeCast S3200000 (extractStridedSlice S1x3200000 ![0, 0] a1 slices_S2x3200000_S1x3200000_0_0)
        shapeCasts_S1x3200000_S3200000⟩,
      ⟨S100000, iotaInDim S100000 32 0⟩]
    concatenates_S3200000_S100000_S3300000_d0

/-- The targets of the edges: row 1 of the edge index, then the nodes themselves. -/
def dstOf (a1 : IVec S2x3200000 32) : IVec S3300000 32 :=
  concatenate S3300000 0
    [⟨S3200000, shapeCast S3200000 (extractStridedSlice S1x3200000 ![1, 0] a1 slices_S2x3200000_S1x3200000_1_0)
        shapeCasts_S1x3200000_S3200000⟩,
      ⟨S100000, iotaInDim S100000 32 0⟩]
    concatenates_S3200000_S100000_S3300000_d0

/-- The degree: ones summed at the nodes the edges arrive at. -/
def degOf (dst : IVec S3300000 32) : FVec Ideal S100000 .f32 :=
  Host.scatterAdd scatter_S100000_S3300000x1_S3300000_n_0_0_1
    (broadcastInDim S100000 ![] bcast_S_S100000 (constant (F := Ideal) S_ .f32 0x00000000#32))
    (broadcastInDim S3300000x1 ![0] bcast_S3300000_S3300000x1_0 dst)
    (broadcastInDim S3300000 ![] bcast_S_S3300000 (constant (F := Ideal) S_ .f32 0x3F800000#32))

/-- The degree factor: `1/√deg` where the degree is positive, zero elsewhere. -/
def disOf (dst : IVec S3300000 32) : FVec Ideal S100000 .f32 :=
  select (cmpf .ogt (degOf dst) (broadcastInDim S100000 ![] bcast_S_S100000 (constant (F := Ideal) S_ .f32 0x00000000#32)))
    (Host.rsqrt (degOf dst))
    (broadcastInDim S100000 ![] bcast_S_S100000 (constant (F := Ideal) S_ .f32 0x00000000#32))

/-- The guarded reciprocal square root of ANY array of degrees is everywhere a nonnegative finite number. -/
theorem guarded_ok (g z : FVec Ideal S100000 .f32) (i : S100000.Idx) (hz : z i = (0 : EReal)) :
    0 ≤ select (cmpf .ogt g z) (Host.rsqrt g) z i ∧ select (cmpf .ogt g z) (Host.rsqrt g) z i ≠ ⊤ := by
  have h : select (cmpf .ogt g z) (Host.rsqrt g) z i
      = Scalar.select (Ideal.cmp .ogt (g i) 0) (Ideal.rsqrt (g i)) (0 : EReal) := by
    rw [select_apply, cmpf_apply, Ideal.cmpf_def, hz]
    rfl
  rw [h]
  exact Cert.GcnFold.guarded_rsqrt _

/-- Every degree factor is a nonnegative finite number. -/
theorem disOf_ok (dst : IVec S3300000 32) (n : Fin 100000) :
    0 ≤ disOf dst (ix1 n) ∧ disOf dst (ix1 n) ≠ ⊤ :=
  guarded_ok (degOf dst) _ (ix1 n) Ideal.ofBits_zero_f32

end Cert.KernelIdeal.Edges

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibRowScale.lean ====
/-
  Rows scaled by a per-row factor, and entries of row-local layers read at a pair of indices.

  `scaleRows G s` multiplies every entry of row `p` of a rank-2 array `G` by the factor `s (p, 0)` held in a
  one-column array; `col v` lays a vector out as that column.  The vector unit spells the scaling as the column
  broadcast along the rows and multiplied in; the host as the vector broadcast to a column, the column broadcast
  along the rows, and multiplied in.  Both are `scaleRows`.  A reshape of a vector to a column is `col`.

  The matrix product, the row scaling and the rectified bias layer are row-local: the entry at `(p, q)` depends on
  row `p` of the left operand only (and on column `q` of the right operand, or entry `q` of the bias).  The `_at`
  lemmas state this for two arrays of different heights read at two indices, which is what reading a block of rows
  against the whole array needs.  All of it at any extents, on the extended reals.
-/
import proofs.«106833_j76888504533336_2_alg».proof.Proof.LibDense
import proofs.«106833_j76888504533336_2_alg».proof.Proof.LibRowBlocks

noncomputable section

open scoped BigOperators

namespace Cert.RowScale

open Idealize.ShloMosaic Idealize.ShloMosaic.ValueIdx Cert.Dense

/-- Every entry of row `p` multiplied by the row's factor `s (p, 0)`. -/
def scaleRows {M N : ℕ} (G : Mat M N) (s : Mat M 1) : Mat M N := fun i => G i * s (ix2 (c0 i) (0 : Fin 1))

theorem scaleRows_apply {M N : ℕ} (G : Mat M N) (s : Mat M 1) (p : Fin M) (q : Fin N) :
    scaleRows G s (ix2 p q) = G (ix2 p q) * s (ix2 p (0 : Fin 1)) := rfl

/-- A vector laid out as a one-column array. -/
def col {M : ℕ} (v : Row M) : Mat M 1 := fun i => v (ix1 (c0 i))

theorem col_apply {M : ℕ} (v : Row M) (p : Fin M) (u : Fin 1) : col v (ix2 p u) = v (ix1 p) := rfl

/-- A vector reshaped to a column is that column. -/
theorem shapeCast_col {M : ℕ} (v : Row M) (h : (⟨1, ![M]⟩ : Shape).ShapeCasts ⟨2, ![M, 1]⟩) :
    shapeCast ⟨2, ![M, 1]⟩ v h = col v := by
  funext i
  obtain ⟨p, u, rfl⟩ : ∃ (p : Fin M) (u : Fin 1), i = ix2 p u := ⟨i 0, i 1, eq_ix2 i⟩
  exact Cert.RowBlocks.shapeCast_col_apply v h p u

/-- The vector unit's form: the column broadcast along the rows, multiplied in. -/
theorem vecScaleRows {M N : ℕ} (G : FVec Ideal ⟨2, ![M, N]⟩ .f32) (s : FVec Ideal ⟨2, ![M, 1]⟩ .f32)
    (h : (⟨2, ![M, 1]⟩ : Shape).Broadcasts ⟨2, ![M, N]⟩) :
    mulf G (broadcastTo ⟨2, ![M, N]⟩ s h) = scaleRows G s := by
  funext i
  obtain ⟨p, q, rfl⟩ : ∃ (p : Fin M) (q : Fin N), i = ix2 p q := ⟨i 0, i 1, eq_ix2 i⟩
  show G (ix2 p q) * broadcastTo ⟨2, ![M, N]⟩ s h (ix2 p q) = _
  rw [Cert.RowBlocks.broadcastTo_col_apply]
  rfl

/-- The host's form: the vector broadcast to a column, the column along the rows, multiplied in. -/
theorem hostScaleRows {M N : ℕ} (G : FVec Ideal ⟨2, ![M, N]⟩ .f32) (v : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1 v)) = scaleRows G (col v) := by
  funext i
  obtain ⟨p, q, rfl⟩ : ∃ (p : Fin M) (q : Fin N), i = ix2 p q := ⟨i 0, i 1, eq_ix2 i⟩
  show G (ix2 p q) * broadcastInDim ⟨2, ![M, N]⟩ ![0, 1] h2 (broadcastInDim ⟨2, ![M, 1]⟩ ![0] h1 v) (ix2 p q) = _
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 v (ix2 p (0 : Fin 1)) (ix1 p) (fun a => by
        match a with
        | ⟨0, _⟩ =>
          show p.val = if M = 1 then 0 else p.val
          split
          · have := p.isLt; omega
          · rfl)]
  rfl

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

/-- The row scaling at an index depends on the entry there and on the row's factor. -/
theorem scaleRows_at {M M' N N' : ℕ} (G : Mat M N) (s : Mat M 1) (G' : Mat M' N') (s' : Mat M' 1)
    (j : (⟨2, ![M', N']⟩ : Shape).Idx) (i : (⟨2, ![M, N]⟩ : Shape).Idx)
    (hG : G' j = G i) (hs : s' (ix2 (c0 j) (0 : Fin 1)) = s (ix2 (c0 i) (0 : Fin 1))) :
    scaleRows G' s' j = scaleRows G s i := by
  unfold scaleRows; rw [hG, hs]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

end Cert.RowScale

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«106833_j76888504533336_2_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.Spec.lean ====
/-
  A two-layer graph convolution with symmetric degree normalisation, as whole-array functions on the extended reals.

  Nodes are `Fin 100000`; an edge list of 3300000 entries (the given edges followed by one self loop per node) is two
  integer vectors `src`, `dst`. An edge `e` ARRIVES at node `p` when `dst e`, read as a signed integer, is `p`: an
  accumulating scatter drops every other edge. The row an edge READS is `src e` with a negative value wrapped once by the
  node count and the result clamped into the node range, as an indexing gather reads it (`readRow`).

  `agg A` gathers the rows of `A` along the edges and sums them at the nodes they arrive at; `aggW A` does the same with
  every gathered row scaled by the edge's normalisation `d (readRow (src e)) · d (readRow (dst e))`.

  The reference computes `aggW` twice (`refOut`). The kernel scales the rows by `d` before gathering and again after
  summing (`kerOut`). `fold_agg` says the two agree for a nonnegative finite `d`: on the edges arriving at `p` the second
  factor is the constant `d p`, which distributes over the sum.
-/
import proofs.«106833_j76888504533336_2_alg».proof.Proof.LibDense
import proofs.«106833_j76888504533336_2_alg».proof.Proof.LibRowScale
import proofs.«106833_j76888504533336_2_alg».proof.Proof.LibBiasRow
import proofs.«106833_j76888504533336_2_alg».proof.Proof.LibGcnFold

noncomputable section

namespace Cert.Gcn2

open Idealize.ShloMosaic Idealize.ShloMosaic.ValueIdx Cert.Dense Cert.RowScale Cert.BiasRow

/-- An edge list's index vector. -/
abbrev EVec : Type := IVec (⟨1, ![3300000]⟩ : Shape) 32

/-- A negative index wrapped once by the node count, as array indexing normalises it. -/
def wrapIdx (b : BitVec 32) : BitVec 32 := Scalar.select (IntOp.cmpi .slt b 0#32) (IntOp.addi b 100000#32) b

/-- The row a gather reads for a start index: read signed, clamped into the node range. -/
def clampRow (b : BitVec 32) : Fin 100000 := ⟨min b.toInt.toNat (100000 - 1), by omega⟩

/-- The row an edge's endpoint reads: wrapped, then clamped. -/
def readRow (b : BitVec 32) : Fin 100000 := clampRow (wrapIdx b)

/-- The edges arriving at node `p`. -/
def arrivals (dst : EVec) (p : Fin 100000) : Finset (Fin 3300000) :=
  Finset.univ.filter fun e => (dst (ix1 e)).toInt = (p.val : Int)

/-- An index that names node `p` reads row `p`: it is not negative, so it is not wrapped, and it is in range, so it is
    not clamped. -/
theorem readRow_of_toInt (b : BitVec 32) (p : Fin 100000) (h : b.toInt = (p.val : Int)) : readRow b = p := by
  have hp := p.isLt
  have hnn : ¬ b.toInt < 0 := by omega
  have hw : wrapIdx b = b := by
    unfold wrapIdx Scalar.select IntOp.cmpi
    have : ¬ BitVec.slt b 0#32 = true := by
      rw [BitVec.slt_eq_decide]
      simpa using hnn
    simp [this]
  unfold readRow
  rw [hw]
  refine Fin.ext ?_
  show min b.toInt.toNat (100000 - 1) = p.val
  omega

/-- Rows gathered along the edges and summed where the edges arrive, from zero. -/
def agg {C : ℕ} (A : Mat 100000 C) (src dst : EVec) : Mat 100000 C :=
  fun i => 0 + ∑ e ∈ arrivals dst (c0 i), A (ix2 (readRow (src (ix1 e))) (c1 i))

theorem agg_apply {C : ℕ} (A : Mat 100000 C) (src dst : EVec) (p : Fin 100000) (q : Fin C) :
    agg A src dst (ix2 p q) = 0 + ∑ e ∈ arrivals dst p, A (ix2 (readRow (src (ix1 e))) q) := rfl

/-- An edge's normalisation: the degree factor of the row its source reads times that of the row its target reads. -/
def edgeNorm (d : Row 100000) (src dst : EVec) (e : Fin 3300000) : EReal :=
  d (ix1 (readRow (src (ix1 e)))) * d (ix1 (readRow (dst (ix1 e))))

/-- The same sum with every gathered row scaled by its edge's normalisation. -/
def aggW {C : ℕ} (A : Mat 100000 C) (d : Row 100000) (src dst : EVec) : Mat 100000 C :=
  fun i => 0 + ∑ e ∈ arrivals dst (c0 i), A (ix2 (readRow (src (ix1 e))) (c1 i)) * edgeNorm d src dst e

theorem aggW_apply {C : ℕ} (A : Mat 100000 C) (d : Row 100000) (src dst : EVec) (p : Fin 100000) (q : Fin C) :
    aggW A d src dst (ix2 p q) = 0 + ∑ e ∈ arrivals dst p, A (ix2 (readRow (src (ix1 e))) q) * edgeNorm d src dst e := rfl

/-- Rows scaled by a per-row factor written on the LEFT of the product. -/
def scaleL {M N : ℕ} (s : Mat M 1) (G : Mat M N) : Mat M N := fun i => s (ix2 (c0 i) (0 : Fin 1)) * G i

theorem scaleL_apply {M N : ℕ} (s : Mat M 1) (G : Mat M N) (p : Fin M) (q : Fin N) :
    scaleL s G (ix2 p q) = s (ix2 p (0 : Fin 1)) * G (ix2 p q) := rfl

/-- THE FOLD, array by array: scaling the rows before the gather and after the sum is the edge-normalised sum, for a
    degree factor that is everywhere a nonnegative finite number. -/
theorem fold_agg {C : ℕ} (A : Mat 100000 C) (d : Row 100000) (src dst : EVec)
    (hd : ∀ n : Fin 100000, 0 ≤ d (ix1 n) ∧ d (ix1 n) ≠ ⊤) :
    scaleL (col d) (agg (scaleRows A (col d)) src dst) = aggW A d src dst := by
  funext i
  obtain ⟨p, q, rfl⟩ : ∃ (p : Fin 100000) (q : Fin C), i = ix2 p q := ⟨i 0, i 1, eq_ix2 i⟩
  rw [scaleL_apply, agg_apply, aggW_apply, col_apply]
  simp only [scaleRows_apply, col_apply]
  refine Cert.GcnFold.fold_out (arrivals dst p) (d (ix1 p)) (hd p).1 (hd p).2
    (fun e => A (ix2 (readRow (src (ix1 e))) q)) (fun e => d (ix1 (readRow (src (ix1 e)))))
    (fun e => d (ix1 (readRow (dst (ix1 e))))) fun e he => ?_
  rw [readRow_of_toInt _ p (Finset.mem_filter.1 he).2]

/-- The first layer's projection with its rows pre-scaled: what the first kernel region leaves. -/
def h0s (x : Mat 100000 256) (w : Mat 256 16) (dc : Mat 100000 1) : Mat 100000 16 := scaleRows (mm x w) dc

/-- The second region: post-scale, bias, rectify, project, pre-scale. -/
def h1s (a : Mat 100000 16) (dc : Mat 100000 1) (b : Mat 1 16) (w : Mat 16 1) : Mat 100000 1 :=
  scaleRows (mm (reluBias (scaleL dc a) b) w) dc

/-- The kernel's result from the degree factor and the edge list. -/
def kerOut (d : Row 100000) (src dst : EVec) (x : Mat 100000 256) (w1 : Mat 256 16) (b1 : Row 16) (w2 : Mat 16 1)
    (b2 : Row 1) : Mat 100000 1 :=
  addRow (scaleL (col d) (agg (h1s (agg (h0s x w1 (col d)) src dst) (col d) (row b1) w2) src dst)) (row b2)

/-- The reference's result from the degree factor and the edge list. -/
def refOut (d : Row 100000) (src dst : EVec) (x : Mat 100000 256) (w1 : Mat 256 16) (b1 : Row 16) (w2 : Mat 16 1)
    (b2 : Row 1) : Mat 100000 1 :=
  addRow (aggW (mm (reluBias (aggW (mm x w1) d src dst) (row b1)) w2) d src dst) (row b2)

/-- THE BRIDGE: the kernel's result is the reference's, the fold applied once per layer. -/
theorem kerOut_eq_refOut (d : Row 100000) (src dst : EVec) (x : Mat 100000 256) (w1 : Mat 256 16) (b1 : Row 16)
    (w2 : Mat 16 1) (b2 : Row 1) (hd : ∀ n : Fin 100000, 0 ≤ d (ix1 n) ∧ d (ix1 n) ≠ ⊤) :
    kerOut d src dst x w1 b1 w2 b2 = refOut d src dst x w1 b1 w2 b2 := by
  unfold kerOut refOut h1s h0s
  rw [fold_agg (mm x w1) d src dst hd, fold_agg _ d src dst hd]

end Cert.Gcn2

end
-- ==== Proof.LibSegmentSum.lean ====
/-
  A segment sum over edges, read at one entry: the accumulating scatter as a plain sum over edges.

  A segment sum scatters one update per edge into an operand and adds. Two shapes occur. ROWS: updates `[M, C]` go into
  an operand `[N, C]` at a column `[M, 1]` of scatter indices; the updates' second axis is the one window axis, the
  operand's first axis is inserted and is the one the scatter index names, and the index vector lies along the column's
  second axis. VECTOR: updates `[M]` go into an operand `[N]` at the same column of scatter indices; there is no window
  axis, the operand's only axis is inserted and named by the scatter index.

  An update lands at start plus window coordinate on every operand axis. On the named axis the start is the edge's scatter
  index read as a SIGNED integer, not clamped, and the window coordinate is zero; on the rows' column axis the start is
  zero and the window coordinate is the update's column. An update whose landing place is outside the operand is dropped.
  Hence the update of edge `e` (in column `q`) lands on row `p` (column `q'`) exactly when the scatter index of `e`, read
  signed, equals `p` (and `q = q'`): a negative or too large index names no row and contributes nothing.

  At the exact-arithmetic instance the accumulating scatter at an entry is that entry plus the sum of all updates landing
  on it. Reindexing the landing updates by their edge (the map `e ↦ (e, q)`, resp. `e ↦ (e)`, is a bijection from the
  edges whose index is `p` onto the updates landing on the entry) gives the scatter at `(p, q)` as
  `x[p, q] + ∑ over edges e with idx[e, 0] = p of upd[e, q]`, and at `p` as `x[p] + ∑ over the same edges of upd[e]`.

  The dimension numbers enter through their fields, so the statements apply to any record with those fields.
-/
import Idealize.ShloMosaic.PureOps
import Idealize.ShloMosaic.Lib.ValueIdx
import Idealize.ShloMosaic.PureOps.Ideal

noncomputable section

namespace Cert.SegmentSum

open Idealize.ShloMosaic Idealize.ShloMosaic.ValueIdx

/-! ## Rows: updates `[M, C]` into an operand `[N, C]` -/

/-- Rows: the window start on the row axis is the scatter index of the edge, read signed. -/
theorem rows_start_zero {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (e : Fin M) (q : Fin C) :
    d.start (ix2 e q) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  have hsi : (⟨[1], [0], [0], 1, wf⟩ : ScatterDims ⟨2, ![N, C]⟩ ⟨2, ![M, 1]⟩ ⟨2, ![M, C]⟩).siIdx (ix2 e q)
      ⟨List.idxOf (0 : Fin 2) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Rows: the column axis is not named by the scatter index, so its window start is zero. -/
theorem rows_start_one {N C M w : Nat} (d : ScatterDims ⟨2, ![N, C]⟩ ⟨2, ![M, 1]⟩ ⟨2, ![M, C]⟩)
    (h3 : d.scatterDimsToOperandDims = [0]) (idx : IVec ⟨2, ![M, 1]⟩ w) (j : (⟨2, ![M, C]⟩ : Shape).Idx) :
    d.start j idx 1 = 0 := by
  unfold ScatterDims.start
  rw [dif_neg (by rw [h3]; simp)]

/-- Rows: the row axis is inserted, so its window coordinate is zero. -/
theorem rows_window_zero {N C M : Nat} (d : ScatterDims ⟨2, ![N, C]⟩ ⟨2, ![M, 1]⟩ ⟨2, ![M, C]⟩)
    (h2 : d.insertedWindowDims = [0]) (j : (⟨2, ![M, C]⟩ : Shape).Idx) : d.window j 0 = 0 := by
  unfold ScatterDims.window
  rw [dif_neg (by simp [ScatterDims.sKept, Shape.kept, h2])]

/-- Rows: the window coordinate on the column axis is the update's column. -/
theorem rows_window_one {N C M : Nat} (d : ScatterDims ⟨2, ![N, C]⟩ ⟨2, ![M, 1]⟩ ⟨2, ![M, C]⟩)
    (h1 : d.updateWindowDims = [1]) (h2 : d.insertedWindowDims = [0]) (e : Fin M) (q : Fin C) :
    d.window (ix2 e q) 1 = q.val := by
  obtain ⟨uw, iw, sd, iv, wf⟩ := d
  dsimp only at h1 h2
  subst h1 h2
  unfold ScatterDims.window
  rw [dif_pos (by simp [ScatterDims.sKept, Shape.kept])]
  rfl

/-- ROWS, WHERE AN UPDATE LANDS: the update at `(e, q)` lands on the entry `(p, q')` exactly when the scatter index of
    edge `e`, read signed, is the row `p`, and the columns agree. -/
theorem rows_lands_iff {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (e : Fin M) (q : Fin C) (p : Fin N) (q' : Fin C) :
    d.resultIdx? (ix2 e q) idx = some (ix2 p q') ↔ (idx (ix2 e (0 : Fin 1))).toInt = (p.val : Int) ∧ q = q' := by
  have hs0 := rows_start_zero d h1 h2 h3 h4 idx e q
  have hs1 := rows_start_one d h3 idx (ix2 e q)
  have hw0 := rows_window_zero d h2 (ix2 e q)
  have hw1 := rows_window_one d h1 h2 e q
  unfold ScatterDims.resultIdx?
  constructor
  · intro h
    split at h
    · rename_i hb
      have hi := Option.some.inj h
      have b0 := (hb 0).1
      have e0 : (d.start (ix2 e q) idx 0 + (d.window (ix2 e q) 0 : Int)).toNat = p.val :=
        congrArg (fun f : (⟨2, ![N, C]⟩ : Shape).Idx => (f 0).val) hi
      have e1 : (d.start (ix2 e q) idx 1 + (d.window (ix2 e q) 1 : Int)).toNat = q'.val :=
        congrArg (fun f : (⟨2, ![N, C]⟩ : Shape).Idx => (f 1).val) hi
      rw [hs0, hw0] at e0 b0
      rw [hs1, hw1] at e1
      exact ⟨by omega, Fin.ext (by omega)⟩
    · exact absurd h (by simp)
  · rintro ⟨ht, rfl⟩
    have hb : ∀ a, 0 ≤ d.start (ix2 e q) idx a + d.window (ix2 e q) a ∧
        d.start (ix2 e q) idx a + d.window (ix2 e q) a < (⟨2, ![N, C]⟩ : Shape).size a := by
      intro a
      match a with
      | ⟨0, _⟩ =>
        show 0 ≤ d.start (ix2 e q) idx 0 + (d.window (ix2 e q) 0 : Int) ∧
          d.start (ix2 e q) idx 0 + (d.window (ix2 e q) 0 : Int) < (N : Int)
        rw [hs0, hw0, ht]; have := p.isLt; omega
      | ⟨1, _⟩ =>
        show 0 ≤ d.start (ix2 e q) idx 1 + (d.window (ix2 e q) 1 : Int) ∧
          d.start (ix2 e q) idx 1 + (d.window (ix2 e q) 1 : Int) < (C : Int)
        rw [hs1, hw1]; have := q.isLt; omega
    rw [dif_pos hb]
    congr 1
    funext a; refine Fin.ext ?_
    match a with
    | ⟨0, _⟩ =>
      show (d.start (ix2 e q) idx 0 + (d.window (ix2 e q) 0 : Int)).toNat = p.val
      rw [hs0, hw0, ht]; omega
    | ⟨1, _⟩ =>
      show (d.start (ix2 e q) idx 1 + (d.window (ix2 e q) 1 : Int)).toNat = q.val
      rw [hs1, hw1]; omega

/-- ROWS, THE SEGMENT SUM AT AN ENTRY: the accumulating scatter at `(p, q)` is the operand's entry plus the sum, over the
    edges whose scatter index read signed is the row `p`, of the updates' entries in column `q`. -/
theorem segSumRows_apply {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (x : FVec Ideal ⟨2, ![N, C]⟩ .f32)
    (upd : FVec Ideal ⟨2, ![M, C]⟩ .f32) (p : Fin N) (q : Fin C) :
    Host.scatterAdd (F := Ideal) d x idx upd (ix2 p q) = x (ix2 p q) +
      ∑ e ∈ Finset.univ.filter (fun e : Fin M => (idx (ix2 e (0 : Fin 1))).toInt = (p.val : Int)), upd (ix2 e q) := by
  show x (ix2 p q) + ∑ j ∈ Finset.univ.filter (fun j => d.resultIdx? j idx = some (ix2 p q)), upd j = _
  congr 1
  symm
  refine Finset.sum_nbij' (fun e : Fin M => ix2 e q) (fun j : (⟨2, ![M, C]⟩ : Shape).Idx => (j 0 : Fin M)) ?_ ?_ ?_ ?_ ?_
  · intro e he
    exact Finset.mem_filter.2 ⟨Finset.mem_univ _,
      (rows_lands_iff d h1 h2 h3 h4 idx e q p q).2 ⟨(Finset.mem_filter.1 he).2, rfl⟩⟩
  · intro j hj
    have hj2 := (Finset.mem_filter.1 hj).2
    rw [eq_ix2 j] at hj2
    exact Finset.mem_filter.2 ⟨Finset.mem_univ _, ((rows_lands_iff d h1 h2 h3 h4 idx (j 0) (j 1) p q).1 hj2).1⟩
  · intro e _
    rfl
  · intro j hj
    have hj2 := (Finset.mem_filter.1 hj).2
    rw [eq_ix2 j] at hj2
    have hq := ((rows_lands_iff d h1 h2 h3 h4 idx (j 0) (j 1) p q).1 hj2).2
    show ix2 (j 0) q = j
    rw [← hq]
    exact (eq_ix2 j).symm
  · intro e _
    rfl

/-! ## Vector: updates `[M]` into an operand `[N]` -/

/-- Vector: the window start on the only axis is the scatter index of the edge, read signed. -/
theorem vec_start_zero {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (e : Fin M) :
    d.start (ix1 e) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  have hsi : (⟨[], [0], [0], 1, wf⟩ : ScatterDims ⟨1, ![N]⟩ ⟨2, ![M, 1]⟩ ⟨1, ![M]⟩).siIdx (ix1 e)
      ⟨List.idxOf (0 : Fin 1) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Vector: the only axis is inserted, so its window coordinate is zero. -/
theorem vec_window_zero {N M : Nat} (d : ScatterDims ⟨1, ![N]⟩ ⟨2, ![M, 1]⟩ ⟨1, ![M]⟩)
    (h2 : d.insertedWindowDims = [0]) (j : (⟨1, ![M]⟩ : Shape).Idx) : d.window j 0 = 0 := by
  unfold ScatterDims.window
  rw [dif_neg (by simp [ScatterDims.sKept, Shape.kept, h2])]

/-- VECTOR, WHERE AN UPDATE LANDS: the update of edge `e` lands on the entry `p` exactly when the scatter index of `e`,
    read signed, is `p`. -/
theorem vec_lands_iff {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (e : Fin M) (p : Fin N) :
    d.resultIdx? (ix1 e) idx = some (ix1 p) ↔ (idx (ix2 e (0 : Fin 1))).toInt = (p.val : Int) := by
  have hs0 := vec_start_zero d h1 h2 h3 h4 idx e
  have hw0 := vec_window_zero d h2 (ix1 e)
  unfold ScatterDims.resultIdx?
  constructor
  · intro h
    split at h
    · rename_i hb
      have hi := Option.some.inj h
      have b0 := (hb 0).1
      have e0 : (d.start (ix1 e) idx 0 + (d.window (ix1 e) 0 : Int)).toNat = p.val :=
        congrArg (fun f : (⟨1, ![N]⟩ : Shape).Idx => (f 0).val) hi
      rw [hs0, hw0] at e0 b0
      omega
    · exact absurd h (by simp)
  · intro ht
    have hb : ∀ a, 0 ≤ d.start (ix1 e) idx a + d.window (ix1 e) a ∧
        d.start (ix1 e) idx a + d.window (ix1 e) a < (⟨1, ![N]⟩ : Shape).size a := by
      intro a
      match a with
      | ⟨0, _⟩ =>
        show 0 ≤ d.start (ix1 e) idx 0 + (d.window (ix1 e) 0 : Int) ∧
          d.start (ix1 e) idx 0 + (d.window (ix1 e) 0 : Int) < (N : Int)
        rw [hs0, hw0, ht]; have := p.isLt; omega
    rw [dif_pos hb]
    congr 1
    funext a; refine Fin.ext ?_
    match a with
    | ⟨0, _⟩ =>
      show (d.start (ix1 e) idx 0 + (d.window (ix1 e) 0 : Int)).toNat = p.val
      rw [hs0, hw0, ht]; omega

/-- VECTOR, THE SEGMENT SUM AT AN ENTRY: the accumulating scatter at `p` is the operand's entry plus the sum, over the
    edges whose scatter index read signed is `p`, of the updates' entries. -/
theorem segSumVec_apply {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (x : FVec Ideal ⟨1, ![N]⟩ .f32)
    (upd : FVec Ideal ⟨1, ![M]⟩ .f32) (p : Fin N) :
    Host.scatterAdd (F := Ideal) d x idx upd (ix1 p) = x (ix1 p) +
      ∑ e ∈ Finset.univ.filter (fun e : Fin M => (idx (ix2 e (0 : Fin 1))).toInt = (p.val : Int)), upd (ix1 e) := by
  show x (ix1 p) + ∑ j ∈ Finset.univ.filter (fun j => d.resultIdx? j idx = some (ix1 p)), upd j = _
  congr 1
  symm
  refine Finset.sum_nbij' (fun e : Fin M => ix1 e) (fun j : (⟨1, ![M]⟩ : Shape).Idx => (j 0 : Fin M)) ?_ ?_ ?_ ?_ ?_
  · intro e he
    exact Finset.mem_filter.2 ⟨Finset.mem_univ _,
      (vec_lands_iff d h1 h2 h3 h4 idx e p).2 (Finset.mem_filter.1 he).2⟩
  · intro j hj
    have hj2 := (Finset.mem_filter.1 hj).2
    rw [eq_ix1 j] at hj2
    exact Finset.mem_filter.2 ⟨Finset.mem_univ _, (vec_lands_iff d h1 h2 h3 h4 idx (j 0) p).1 hj2⟩
  · intro e _
    rfl
  · intro j _
    exact (eq_ix1 j).symm
  · intro e _
    rfl

end Cert.SegmentSum

end
-- ==== Proof.LibGatherVec.lean ====
/-
  A gather of single entries of a vector at a column of start indices, read at an index.

  `x[idx]` for a flat array `x : [N]` and an integer array `idx : [M]` reaches the host as a gather whose start indices are
  the column `[M, 1]`: no offset axis, the operand's one axis collapsed, slices of one entry, the index vector along the
  column's second axis. Result entry `s` is `x` at the start index `idx[s, 0]`, read as a signed integer and clamped into
  `[0, N − 1]`, as every start index of a gather is clamped.
-/
import Idealize.ShloMosaic.Lib.ValueIdx

noncomputable section

namespace Cert.GatherVec

open Idealize.ShloMosaic Idealize.ShloMosaic.ValueIdx

variable {α : Type}

/-- Those dimension numbers for an operand `[N]`, start indices `[M, 1]` and a result `[M]`. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `s`: the operand at the start index `idx[s, 0]`, read signed and clamped into `[0, N − 1]`. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (s : Fin M) :
    Host.gather (vecDims N M wf) x idx (ix1 s)
      = x (ix1 ⟨min (idx (ix2 s (0 : Fin 1))).toInt.toNat (N - 1), by omega⟩) := by
  unfold Host.gather
  congr 1
  funext a
  obtain rfl : a = 0 := Subsingleton.elim _ _
  refine Fin.ext ?_
  show (vecDims N M wf).start (ix1 s) idx 0 + (vecDims N M wf).batchCoord (ix1 s) 0 + (vecDims N M wf).offCoord (ix1 s) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 s) ⟨List.idxOf (0 : Fin 1) (vecDims N M wf).startIndexMap,
      List.idxOf_lt_length_iff.2 (List.mem_singleton.mpr rfl)⟩ = ix2 s (0 : Fin 1) := by
    funext b; refine Fin.ext ?_
    match b with
    | ⟨0, _⟩ => rfl
    | ⟨1, _⟩ => rfl
  rw [hsi]
  rfl

end Cert.GatherVec

end
-- ==== Proof.LibGatherRows.lean ====
/-
  A gather of whole rows of a rank-2 array at a column of start indices, read at an index.

  `x[idx]` for an array `x : [N, C]` and an integer array `idx : [M]` reaches the host as a gather whose start indices are
  the column `[M, 1]`: the result's second axis is the one offset axis, the operand's first axis is collapsed and is the
  one the start index names, slices are one row `[1, C]`, the index vector lies along the column's second axis. Result
  entry `(s, q)` is `x` at row `idx[s, 0]`, read as a signed integer and clamped into `[0, N − 1]` as every start index of
  a gather is clamped, and column `q`. The dimension numbers enter through their fields, so any record with these fields
  reads this way; the gather of single entries of a vector is restated in the same form.
-/
import Idealize.ShloMosaic.Lib.ValueIdx
import proofs.«106833_j76888504533336_2_alg».proof.Proof.LibGatherVec

noncomputable section

namespace Cert.GatherRows

open Idealize.ShloMosaic Idealize.ShloMosaic.ValueIdx

variable {α : Type}

/-- Two records of gather dimension numbers with the same fields are the same record. -/
theorem gatherDims_eq {s si t : Shape} (d d' : GatherDims s si t) (h1 : d.offsetDims = d'.offsetDims)
    (h2 : d.collapsedSliceDims = d'.collapsedSliceDims) (h3 : d.operandBatchingDims = d'.operandBatchingDims)
    (h4 : d.startIndicesBatchingDims = d'.startIndicesBatchingDims) (h5 : d.startIndexMap = d'.startIndexMap)
    (h6 : d.indexVectorDim = d'.indexVectorDim) (h7 : d.sliceSizes = d'.sliceSizes) : d = d' := by
  obtain ⟨od, cd, ob, sb, sm, iv, ss, wf⟩ := d
  obtain ⟨od', cd', ob', sb', sm', iv', ss', wf'⟩ := d'
  dsimp only at h1 h2 h3 h4 h5 h6 h7
  subst h1 h2 h3 h4 h5 h6 h7
  rfl

/-- THE GATHER OF ROWS READ AT `(s, q)`: the operand at row `idx[s, 0]`, read signed and clamped into `[0, N − 1]`, and
    column `q`. -/
theorem gather_rows_apply {N C M w : Nat} (hN : 0 < N) (d : GatherDims ⟨2, ![N, C]⟩ ⟨2, ![M, 1]⟩ ⟨2, ![M, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![M, 1]⟩ w) (s : Fin M) (q : Fin C) :
    Host.gather d x idx (ix2 s q)
      = x (ix2 ⟨min (idx (ix2 s (0 : Fin 1))).toInt.toNat (N - 1), by omega⟩ q) := by
  obtain ⟨od, cd, ob, sb, sm, iv, ss, wf⟩ := d
  dsimp only at h1 h2 h3 h4 h5 h6 h7
  subst h1 h2 h3 h4 h5 h6 h7
  generalize hD : (⟨[1], [0], [], [], [0], 1, ![1, C], wf⟩ : GatherDims ⟨2, ![N, C]⟩ ⟨2, ![M, 1]⟩ ⟨2, ![M, C]⟩) = D
  have hsm : D.startIndexMap = [0] := by subst hD; rfl
  have hob : D.operandBatchingDims = [] := by subst hD; rfl
  have hcd : D.collapsedSliceDims = [0] := by subst hD; rfl
  unfold Host.gather
  congr 1
  funext a
  refine Fin.ext ?_
  match a with
  | ⟨0, _⟩ =>
    show D.start (ix2 s q) idx 0 + D.batchCoord (ix2 s q) 0 + D.offCoord (ix2 s q) 0 = _
    rw [GatherDims.batchCoord_eq_zero _ _ _ (by rw [hob]; exact List.not_mem_nil),
      GatherDims.offCoord_eq_zero _ _ _ (fun h => ((GatherDims.mem_sKept _ _).mp h).1 (by rw [hcd]; exact List.mem_singleton.mpr rfl))]
    simp only [Nat.add_zero]
    subst hD
    unfold GatherDims.start
    rw [dif_pos (List.mem_singleton.mpr rfl)]
    have hsi : (⟨[1], [0], [], [], [0], 1, ![1, C], wf⟩ : GatherDims ⟨2, ![N, C]⟩ ⟨2, ![M, 1]⟩ ⟨2, ![M, C]⟩).siIdx (ix2 s q)
        ⟨List.idxOf (0 : Fin 2) [0], List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    rfl
  | ⟨1, _⟩ =>
    show D.start (ix2 s q) idx 1 + D.batchCoord (ix2 s q) 1 + D.offCoord (ix2 s q) 1 = q.val
    rw [GatherDims.batchCoord_eq_zero _ _ _ (by rw [hob]; exact List.not_mem_nil)]
    have hst : D.start (ix2 s q) idx 1 = 0 := by
      unfold GatherDims.start
      rw [dif_neg (by rw [hsm]; exact fun hm => Nat.one_ne_zero (congrArg Fin.val (List.mem_singleton.mp hm)))]
    rw [hst]
    subst hD
    unfold GatherDims.offCoord
    rw [dif_pos ((GatherDims.mem_sKept _ _).mpr
      ⟨fun hm => Nat.one_ne_zero (congrArg Fin.val (List.mem_singleton.mp hm)), List.not_mem_nil⟩)]
    simp only [Nat.zero_add, Nat.add_zero]
    rfl

/-- THE GATHER OF ENTRIES OF A VECTOR READ AT `s`, the dimension numbers given by their fields: the operand at the start
    index `idx[s, 0]`, read signed and clamped into `[0, N − 1]`. -/
theorem gather_vec_apply' {N M w : Nat} (hN : 0 < N) (d : GatherDims ⟨1, ![N]⟩ ⟨2, ![M, 1]⟩ ⟨1, ![M]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![M, 1]⟩ w) (s : Fin M) :
    Host.gather d x idx (ix1 s) = x (ix1 ⟨min (idx (ix2 s (0 : Fin 1))).toInt.toNat (N - 1), by omega⟩) := by
  obtain ⟨od, cd, ob, sb, sm, iv, ss, wf⟩ := d
  dsimp only at h1 h2 h3 h4 h5 h6 h7
  subst h1 h2 h3 h4 h5 h6 h7
  exact Cert.GatherVec.gather_vec_apply hN wf x idx s

end Cert.GatherRows

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«106833_j76888504533336_2_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.HostEdges.lean ====
/-
  The host's gather and accumulating scatter along an edge list, read against the specification's `arrivals` and `readRow`.

  The scatter index column is the broadcast of `dst` itself: an update of edge `e` lands on row `p` exactly when `dst e`,
  read signed, is `p`, and into a zero array the result at `(p, q)` is the sum of the updates of the edges arriving at `p`.
  The gather's start-index column is the broadcast of the WRAPPED index vector (a negative index plus the node count):
  the row it reads for edge `e` is that wrapped index clamped into range, `readRow`. A gather followed by such a scatter
  is `agg`.
-/
import proofs.«106833_j76888504533336_2_alg».proof.Proof.Spec
import proofs.«106833_j76888504533336_2_alg».proof.Proof.LibSegmentSum
import proofs.«106833_j76888504533336_2_alg».proof.Proof.LibGatherRows
import proofs.«106833_j76888504533336_2_alg».proof.Proof.LibHostLayout

noncomputable section

namespace Cert.Gcn2

open Idealize.ShloMosaic Idealize.ShloMosaic.ValueIdx Cert.Dense

/-- A zero scalar broadcast to a rank-2 array is zero everywhere. -/
theorem zero_mat {a b : ℕ} (h0 : (⟨0, ![]⟩ : Shape).BroadcastsInDim ⟨2, ![a, b]⟩ ![]) (i : (⟨2, ![a, b]⟩ : Shape).Idx) :
    broadcastInDim ⟨2, ![a, b]⟩ ![] h0 (constant (F := Ideal) ⟨0, ![]⟩ .f32 0x00000000#32) i = (0 : EReal) := by
  show Ideal.ofBits .f32 0x00000000#32 = 0
  exact Ideal.ofBits_zero_f32

/-- The wrapped index vector, as array indexing builds it on the host: where an index is negative, the index plus the
    node count. -/
def wrapVec (hs : (⟨0, ![]⟩ : Shape).BroadcastsInDim ⟨1, ![3300000]⟩ ![]) (v : EVec) : EVec :=
  select (cmpi .slt v (broadcastInDim ⟨1, ![3300000]⟩ ![] hs (constantI ⟨0, ![]⟩ 32 0#32)))
    (addi v (broadcastInDim ⟨1, ![3300000]⟩ ![] hs (constantI ⟨0, ![]⟩ 32 100000#32))) v

theorem wrapVec_apply (hs : (⟨0, ![]⟩ : Shape).BroadcastsInDim ⟨1, ![3300000]⟩ ![]) (v : EVec) (e : Fin 3300000) :
    wrapVec hs v (ix1 e) = wrapIdx (v (ix1 e)) := rfl

/-- AN ACCUMULATING SCATTER OF ROWS INTO ZEROS at the column of `dst`: at `(p, q)` the sum, from zero, of the updates of
    the edges arriving at `p`. -/
theorem scatter_arrivals {C : ℕ} (D : ScatterDims ⟨2, ![100000, C]⟩ ⟨2, ![3300000, 1]⟩ ⟨2, ![3300000, C]⟩)
    (h1 : D.updateWindowDims = [1]) (h2 : D.insertedWindowDims = [0]) (h3 : D.scatterDimsToOperandDims = [0])
    (h4 : D.indexVectorDim = 1) (h0 : (⟨0, ![]⟩ : Shape).BroadcastsInDim ⟨2, ![100000, C]⟩ ![])
    (hb : (⟨1, ![3300000]⟩ : Shape).BroadcastsInDim ⟨2, ![3300000, 1]⟩ ![0]) (dst : EVec)
    (U : FVec Ideal ⟨2, ![3300000, C]⟩ .f32) (p : Fin 100000) (q : Fin C) :
    Host.scatterAdd (F := Ideal) D
        (broadcastInDim ⟨2, ![100000, C]⟩ ![] h0 (constant (F := Ideal) ⟨0, ![]⟩ .f32 0x00000000#32))
        (broadcastInDim ⟨2, ![3300000, 1]⟩ ![0] hb dst) U (ix2 p q)
      = 0 + ∑ e ∈ arrivals dst p, U (ix2 e q) := by
  have hf : (Finset.univ.filter fun e : Fin 3300000 =>
      (broadcastInDim ⟨2, ![3300000, 1]⟩ ![0] hb dst (ix2 e (0 : Fin 1))).toInt = (p.val : Int)) = arrivals dst p := by
    unfold arrivals
    refine Finset.filter_congr fun e _ => ?_
    rw [Cert.HostLayout.bcast_vec_col]
  rw [Cert.SegmentSum.segSumRows_apply D h1 h2 h3 h4, zero_mat, hf]

/-- A GATHER OF ROWS at the column of the wrapped sources: at `(e, q)` the operand at the row edge `e` reads. -/
theorem gather_readRow {C : ℕ} (G : GatherDims ⟨2, ![100000, C]⟩ ⟨2, ![3300000, 1]⟩ ⟨2, ![3300000, C]⟩)
    (g1 : G.offsetDims = [1]) (g2 : G.collapsedSliceDims = [0]) (g3 : G.operandBatchingDims = [])
    (g4 : G.startIndicesBatchingDims = []) (g5 : G.startIndexMap = [0]) (g6 : G.indexVectorDim = 1)
    (g7 : G.sliceSizes = ![1, C]) (hb : (⟨1, ![3300000]⟩ : Shape).BroadcastsInDim ⟨2, ![3300000, 1]⟩ ![0])
    (hs : (⟨0, ![]⟩ : Shape).BroadcastsInDim ⟨1, ![3300000]⟩ ![]) (A : Mat 100000 C) (src : EVec)
    (e : Fin 3300000) (q : Fin C) :
    Host.gather G A (broadcastInDim ⟨2, ![3300000, 1]⟩ ![0] hb (wrapVec hs src)) (ix2 e q)
      = A (ix2 (readRow (src (ix1 e))) q) := by
  rw [Cert.GatherRows.gather_rows_apply (by norm_num) G g1 g2 g3 g4 g5 g6 g7]
  refine congrArg (fun r => A (ix2 r q)) (Fin.ext ?_)
  show min (broadcastInDim ⟨2, ![3300000, 1]⟩ ![0] hb (wrapVec hs src) (ix2 e (0 : Fin 1))).toInt.toNat (100000 - 1)
    = min (wrapIdx (src (ix1 e))).toInt.toNat (100000 - 1)
  rw [Cert.HostLayout.bcast_vec_col, wrapVec_apply]

/-- A GATHER OF ENTRIES OF A VECTOR at the column of a wrapped index vector: at `e` the vector at the row `e` reads. -/
theorem gatherVec_readRow (G : GatherDims ⟨1, ![100000]⟩ ⟨2, ![3300000, 1]⟩ ⟨1, ![3300000]⟩)
    (g1 : G.offsetDims = []) (g2 : G.collapsedSliceDims = [0]) (g3 : G.operandBatchingDims = [])
    (g4 : G.startIndicesBatchingDims = []) (g5 : G.startIndexMap = [0]) (g6 : G.indexVectorDim = 1)
    (g7 : G.sliceSizes = ![1]) (hb : (⟨1, ![3300000]⟩ : Shape).BroadcastsInDim ⟨2, ![3300000, 1]⟩ ![0])
    (hs : (⟨0, ![]⟩ : Shape).BroadcastsInDim ⟨1, ![3300000]⟩ ![]) (d : Row 100000) (v : EVec) (e : Fin 3300000) :
    Host.gather G d (broadcastInDim ⟨2, ![3300000, 1]⟩ ![0] hb (wrapVec hs v)) (ix1 e)
      = d (ix1 (readRow (v (ix1 e)))) := by
  rw [Cert.GatherRows.gather_vec_apply' (by norm_num) G g1 g2 g3 g4 g5 g6 g7]
  refine congrArg (fun r => d (ix1 r)) (Fin.ext ?_)
  show min (broadcastInDim ⟨2, ![3300000, 1]⟩ ![0] hb (wrapVec hs v) (ix2 e (0 : Fin 1))).toInt.toNat (100000 - 1)
    = min (wrapIdx (v (ix1 e))).toInt.toNat (100000 - 1)
  rw [Cert.HostLayout.bcast_vec_col, wrapVec_apply]

/-- GATHER THEN SCATTER IS `agg`: rows gathered at the wrapped sources and summed into zeros at the targets. -/
theorem hostAgg {C : ℕ} (D : ScatterDims ⟨2, ![100000, C]⟩ ⟨2, ![3300000, 1]⟩ ⟨2, ![3300000, C]⟩)
    (h1 : D.updateWindowDims = [1]) (h2 : D.insertedWindowDims = [0]) (h3 : D.scatterDimsToOperandDims = [0])
    (h4 : D.indexVectorDim = 1) (G : GatherDims ⟨2, ![100000, C]⟩ ⟨2, ![3300000, 1]⟩ ⟨2, ![3300000, C]⟩)
    (g1 : G.offsetDims = [1]) (g2 : G.collapsedSliceDims = [0]) (g3 : G.operandBatchingDims = [])
    (g4 : G.startIndicesBatchingDims = []) (g5 : G.startIndexMap = [0]) (g6 : G.indexVectorDim = 1)
    (g7 : G.sliceSizes = ![1, C]) (h0 : (⟨0, ![]⟩ : Shape).BroadcastsInDim ⟨2, ![100000, C]⟩ ![])
    (hb : (⟨1, ![3300000]⟩ : Shape).BroadcastsInDim ⟨2, ![3300000, 1]⟩ ![0])
    (hs : (⟨0, ![]⟩ : Shape).BroadcastsInDim ⟨1, ![3300000]⟩ ![]) (A : Mat 100000 C) (src dst : EVec) :
    Host.scatterAdd (F := Ideal) D
        (broadcastInDim ⟨2, ![100000, C]⟩ ![] h0 (constant (F := Ideal) ⟨0, ![]⟩ .f32 0x00000000#32))
        (broadcastInDim ⟨2, ![3300000, 1]⟩ ![0] hb dst)
        (Host.gather G A (broadcastInDim ⟨2, ![3300000, 1]⟩ ![0] hb (wrapVec hs src)))
      = agg A src dst := by
  funext i
  obtain ⟨p, q, rfl⟩ : ∃ (p : Fin 100000) (q : Fin C), i = ix2 p q := ⟨i 0, i 1, eq_ix2 i⟩
  rw [scatter_arrivals D h1 h2 h3 h4 h0 hb, agg_apply]
  exact congrArg (0 + ·) (Finset.sum_congr rfl fun e _ => gather_readRow G g1 g2 g3 g4 g5 g6 g7 hb hs A src e q)

end Cert.Gcn2

end
-- ==== Proof.KStretch.lean ====
/-
  The kernel program's five stretches of host operations, each read over an arbitrary valuation of the buffers.

  Before the first region: the edge list's two index vectors, the degree and its guarded reciprocal square root
  (through the called select), and that factor reshaped to a column. Between the regions: the rows of the first region's
  result gathered along the edges and summed where they arrive, and the first bias as a one-row array. After the second
  region: the same aggregation of its one-column result, scaled once more by the degree column, plus the second bias.
  A stretch leaves every buffer it does not write as it found it.
-/
import proofs.«106833_j76888504533336_2_alg».proof.Proof.Gen.KernelIdeal.Launch
import proofs.«106833_j76888504533336_2_alg».proof.Proof.EdgeTerms
import proofs.«106833_j76888504533336_2_alg».proof.Proof.HostEdges
import Idealize.ShloMosaic.Lib.StableHlo.Run

noncomputable section

namespace Cert.KernelIdeal.KStretch

open Cert.KernelIdeal Cert.KernelIdeal.Facts₀ Cert.KernelIdeal.Edges
open Idealize.ShloMosaic Idealize.ShloMosaic.TcCoe Idealize.ShloMosaic.StableHlo Idealize.ShloMosaic.ValueIdx
open Cert.Dense Cert.RowScale Cert.BiasRow Cert.Gcn2

variable (Wx : Valuation τ sig (Elt Ideal))

/-- A product of two one-column arrays is the second with its rows scaled by the first. -/
theorem mulf_col_scaleL {M : ℕ} (s G : FVec Ideal ⟨2, ![M, 1]⟩ .f32) : mulf s G = scaleL s G := by
  funext i
  obtain ⟨p, u, rfl⟩ : ∃ (p : Fin M) (u : Fin 1), i = ix2 p u := ⟨i 0, i 1, eq_ix2 i⟩
  obtain rfl : u = 0 := Subsingleton.elim _ _
  rfl

/-! ## The first stretch: index vectors, degree, its comparison and reciprocal square root -/

theorem s0_v3 : after (Gen.hostOps0 (F := Ideal)) Wx (Proc.devRef .tc main_v3) = srcOf (Wx (Proc.devRef .tc main_arg1)) := by
  after_results; rfl
theorem s0_v6 : after (Gen.hostOps0 (F := Ideal)) Wx (Proc.devRef .tc main_v6) = dstOf (Wx (Proc.devRef .tc main_arg1)) := by
  after_results; rfl
theorem s0_v12 : after (Gen.hostOps0 (F := Ideal)) Wx (Proc.devRef .tc main_v12)
    = cmpf .ogt (degOf (dstOf (Wx (Proc.devRef .tc main_arg1))))
        (broadcastInDim S100000 ![] bcast_S_S100000 (constant (F := Ideal) S_ .f32 0x00000000#32)) := by
  after_results; rfl
theorem s0_v13 : after (Gen.hostOps0 (F := Ideal)) Wx (Proc.devRef .tc main_v13)
    = Host.rsqrt (degOf (dstOf (Wx (Proc.devRef .tc main_arg1)))) := by
  after_results; rfl
theorem s0_cst2 : after (Gen.hostOps0 (F := Ideal)) Wx (Proc.devRef .tc main_cst_2) = constant (F := Ideal) S_ .f32 0x00000000#32 := by
  after_results
theorem s0_arg0 : after (Gen.hostOps0 (F := Ideal)) Wx (Proc.devRef .tc main_arg0) = Wx (Proc.devRef .tc main_arg0) := by after_results
theorem s0_arg2 : after (Gen.hostOps0 (F := Ideal)) Wx (Proc.devRef .tc main_arg2) = Wx (Proc.devRef .tc main_arg2) := by after_results
theorem s0_arg3 : after (Gen.hostOps0 (F := Ideal)) Wx (Proc.devRef .tc main_arg3) = Wx (Proc.devRef .tc main_arg3) := by after_results
theorem s0_arg4 : after (Gen.hostOps0 (F := Ideal)) Wx (Proc.devRef .tc main_arg4) = Wx (Proc.devRef .tc main_arg4) := by after_results
theorem s0_arg5 : after (Gen.hostOps0 (F := Ideal)) Wx (Proc.devRef .tc main_arg5) = Wx (Proc.devRef .tc main_arg5) := by after_results

/-! ## The called select -/

theorem s01_v14 : after (Gen.hostOps0_1 (F := Ideal)) Wx (Proc.devRef .tc main_v14)
    = select (Wx (Proc.devRef .tc main_v12)) (Wx (Proc.devRef .tc main_v13))
        (broadcastInDim S100000 ![] bcast_S_S100000 (Wx (Proc.devRef .tc main_cst_2))) := by
  after_results; rfl
theorem s01_v3 : after (Gen.hostOps0_1 (F := Ideal)) Wx (Proc.devRef .tc main_v3) = Wx (Proc.devRef .tc main_v3) := by after_results
theorem s01_v6 : after (Gen.hostOps0_1 (F := Ideal)) Wx (Proc.devRef .tc main_v6) = Wx (Proc.devRef .tc main_v6) := by after_results
theorem s01_arg0 : after (Gen.hostOps0_1 (F := Ideal)) Wx (Proc.devRef .tc main_arg0) = Wx (Proc.devRef .tc main_arg0) := by after_results
theorem s01_arg2 : after (Gen.hostOps0_1 (F := Ideal)) Wx (Proc.devRef .tc main_arg2) = Wx (Proc.devRef .tc main_arg2) := by after_results
theorem s01_arg3 : after (Gen.hostOps0_1 (F := Ideal)) Wx (Proc.devRef .tc main_arg3) = Wx (Proc.devRef .tc main_arg3) := by after_results
theorem s01_arg4 : after (Gen.hostOps0_1 (F := Ideal)) Wx (Proc.devRef .tc main_arg4) = Wx (Proc.devRef .tc main_arg4) := by after_results
theorem s01_arg5 : after (Gen.hostOps0_1 (F := Ideal)) Wx (Proc.devRef .tc main_arg5) = Wx (Proc.devRef .tc main_arg5) := by after_results

/-! ## The reshape to a column -/

theorem s02_v15 : after (Gen.hostOps0_2 (F := Ideal)) Wx (Proc.devRef .tc main_v15)
    = col (Wx (Proc.devRef .tc main_v14) : FVec Ideal S100000 .f32) := by
  after_results
  exact shapeCast_col (Wx (Proc.devRef .tc main_v14) : FVec Ideal S100000 .f32) shapeCasts_S100000_S100000x1
theorem s02_v3 : after (Gen.hostOps0_2 (F := Ideal)) Wx (Proc.devRef .tc main_v3) = Wx (Proc.devRef .tc main_v3) := by after_results
theorem s02_v6 : after (Gen.hostOps0_2 (F := Ideal)) Wx (Proc.devRef .tc main_v6) = Wx (Proc.devRef .tc main_v6) := by after_results
theorem s02_arg0 : after (Gen.hostOps0_2 (F := Ideal)) Wx (Proc.devRef .tc main_arg0) = Wx (Proc.devRef .tc main_arg0) := by after_results
theorem s02_arg2 : after (Gen.hostOps0_2 (F := Ideal)) Wx (Proc.devRef .tc main_arg2) = Wx (Proc.devRef .tc main_arg2) := by after_results
theorem s02_arg3 : after (Gen.hostOps0_2 (F := Ideal)) Wx (Proc.devRef .tc main_arg3) = Wx (Proc.devRef .tc main_arg3) := by after_results
theorem s02_arg4 : after (Gen.hostOps0_2 (F := Ideal)) Wx (Proc.devRef .tc main_arg4) = Wx (Proc.devRef .tc main_arg4) := by after_results
theorem s02_arg5 : after (Gen.hostOps0_2 (F := Ideal)) Wx (Proc.devRef .tc main_arg5) = Wx (Proc.devRef .tc main_arg5) := by after_results

/-! ## Between the regions -/

theorem s1_v26 : after (Gen.hostOps1 (F := Ideal)) Wx (Proc.devRef .tc main_v26)
    = agg (Wx (Proc.devRef .tc main_v16) : FVec Ideal S100000x16 .f32) (Wx (Proc.devRef .tc main_v3)) (Wx (Proc.devRef .tc main_v6)) := by
  after_results
  exact hostAgg scatter_S100000x16_S3300000x1_S3300000x16_1_0_0_1 rfl rfl rfl rfl
    gather_S100000x16_S3300000x1_S3300000x16_1_0_n_n_0_1_116 rfl rfl rfl rfl rfl rfl rfl
    bcast_S_S100000x16 bcast_S3300000_S3300000x1_0 bcast_S_S3300000 _ _ _
theorem s1_v27 : after (Gen.hostOps1 (F := Ideal)) Wx (Proc.devRef .tc main_v27)
    = row (Wx (Proc.devRef .tc main_arg3) : FVec Ideal S16 .f32) := by
  after_results
  exact shapeCast_row (Wx (Proc.devRef .tc main_arg3) : FVec Ideal S16 .f32) shapeCasts_S16_S1x16
theorem s1_v15 : after (Gen.hostOps1 (F := Ideal)) Wx (Proc.devRef .tc main_v15) = Wx (Proc.devRef .tc main_v15) := by after_results
theorem s1_v3 : after (Gen.hostOps1 (F := Ideal)) Wx (Proc.devRef .tc main_v3) = Wx (Proc.devRef .tc main_v3) := by after_results
theorem s1_v6 : after (Gen.hostOps1 (F := Ideal)) Wx (Proc.devRef .tc main_v6) = Wx (Proc.devRef .tc main_v6) := by after_results
theorem s1_arg4 : after (Gen.hostOps1 (F := Ideal)) Wx (Proc.devRef .tc main_arg4) = Wx (Proc.devRef .tc main_arg4) := by after_results
theorem s1_arg5 : after (Gen.hostOps1 (F := Ideal)) Wx (Proc.devRef .tc main_arg5) = Wx (Proc.devRef .tc main_arg5) := by after_results

/-! ## After the second region -/

set_option maxHeartbeats 2000000 in
theorem s2_v42 : after (Gen.hostOps2 (F := Ideal)) Wx (Proc.devRef .tc main_v42)
    = addRow (scaleL (Wx (Proc.devRef .tc main_v15) : FVec Ideal S100000x1 .f32)
        (agg (Wx (Proc.devRef .tc main_v28) : FVec Ideal S100000x1 .f32) (Wx (Proc.devRef .tc main_v3)) (Wx (Proc.devRef .tc main_v6))))
        (row (Wx (Proc.devRef .tc main_arg5) : FVec Ideal S1 .f32)) := by
  after_results_simp
  have e1 := hostAgg scatter_S100000x1_S3300000x1_S3300000x1_1_0_0_1 rfl rfl rfl rfl
    gather_S100000x1_S3300000x1_S3300000x1_1_0_n_n_0_1_11 rfl rfl rfl rfl rfl rfl rfl
    bcast_S_S100000x1 bcast_S3300000_S3300000x1_0 bcast_S_S3300000
    (Wx (Proc.devRef .tc main_v28) : FVec Ideal S100000x1 .f32) (Wx (Proc.devRef .tc main_v3)) (Wx (Proc.devRef .tc main_v6))
  refine (congrArg (fun S => addf (mulf (Wx (Proc.devRef .tc main_v15) : FVec Ideal S100000x1 .f32) S)
    (broadcastInDim S100000x1 ![0, 1] bcast_S1x1_S100000x1_0_1
      (broadcastInDim S1x1 ![1] bcast_S1_S1x1_1 (Wx (Proc.devRef .tc main_arg5) : FVec Ideal S1 .f32)))) e1).trans ?_
  rw [mulf_col_scaleL]
  exact hostAddRow _ (Wx (Proc.devRef .tc main_arg5) : FVec Ideal S1 .f32) bcast_S1_S1x1_1 bcast_S1x1_S100000x1_0_1

end Cert.KernelIdeal.KStretch

end
-- ==== Proof.RegionPay.lean ====
/-
  The arithmetic of the two kernel bodies on the extended reals, each as one closed term of the blocks it loads.

  The first body rounds its two operands to a narrower format (the identity on the extended reals), multiplies them
  into a zero accumulator and scales row `p` of the product by the factor in row `p` of a one-column block: the
  row-scaled matrix product `scaleRows (mm X W) s`.

  The second body scales row `p` of its block by the same kind of factor written on the LEFT of the product, adds a
  one-row bias to every row, rectifies, multiplies by a one-column weight into a zero accumulator and scales the rows of
  the one-column result by the factor again: `scaleRows (mm (reluBias (scaleL s A) b) W) s`.
-/
import proofs.«106833_j76888504533336_2_alg».proof.Proof.Gen.KernelIdeal.Skeleton
import proofs.«106833_j76888504533336_2_alg».proof.Proof.Spec

noncomputable section

namespace Cert.KernelIdeal.RegionVals

open Idealize.ShloMosaic Idealize.ShloMosaic.ValueIdx Cert.KernelIdeal Cert.KernelIdeal.Gen Cert.Dense Cert.RowScale
  Cert.Gcn2

/-- The column broadcast along the rows and multiplied in from the left is the left row scaling. -/
theorem vecScaleL {M N : ℕ} (s : FVec Ideal ⟨2, ![M, 1]⟩ .f32) (G : FVec Ideal ⟨2, ![M, N]⟩ .f32)
    (h : (⟨2, ![M, 1]⟩ : Shape).Broadcasts ⟨2, ![M, N]⟩) :
    mulf (broadcastTo ⟨2, ![M, N]⟩ s h) G = scaleL s G := by
  funext i
  obtain ⟨p, q, rfl⟩ : ∃ (p : Fin M) (q : Fin N), i = ix2 p q := ⟨i 0, i 1, eq_ix2 i⟩
  show broadcastTo ⟨2, ![M, N]⟩ s h (ix2 p q) * G (ix2 p q) = _
  rw [Cert.RowBlocks.broadcastTo_col_apply]
  rfl

/-- Two one-column arrays multiplied entry by entry: the rows of the first scaled by the second. -/
theorem mulCol {M : ℕ} (G s : FVec Ideal ⟨2, ![M, 1]⟩ .f32) : mulf G s = scaleRows G s := by
  funext i
  obtain ⟨p, q, rfl⟩ : ∃ (p : Fin M) (q : Fin 1), i = ix2 p q := ⟨i 0, i 1, eq_ix2 i⟩
  obtain rfl : q = 0 := Subsingleton.elim _ _
  rfl

/-- The first body: the row-scaled matrix product of its blocks. -/
theorem firstBody_eq (X : Vec Ideal S4000x256 .f32) (W : Vec Ideal S256x16 .f32) (s : Vec Ideal S4000x1 .f32) :
    k0_pay1 (F := Ideal) X W s = scaleRows (mm X W) s := by
  unfold k0_pay1
  dsimp only
  rw [shapeCast_self]
  refine (vecScaleRows _ s broadcasts_S4000x1_S4000x16).trans ?_
  refine congrArg (fun G => scaleRows G s) ?_
  exact matmul_zero_eq_mm dot_S4000x256_S256x16_S4000x16_1_0_0_1_n_n rfl rfl rfl rfl rfl rfl none X W

/-- The second body: scale on the left, bias, rectify, project, scale. -/
theorem secondBody_eq (A : Vec Ideal S5000x16 .f32) (s : Vec Ideal S5000x1 .f32) (b : Vec Ideal S1x16 .f32)
    (W : Vec Ideal S16x1 .f32) :
    k1_pay1 (F := Ideal) A s b W = scaleRows (mm (reluBias (scaleL s A) b) W) s := by
  unfold k1_pay1
  dsimp only
  rw [shapeCast_self, shapeCast_self, shapeCast_self]
  refine (mulCol _ s).trans ?_
  refine congrArg (fun G => scaleRows G s) ?_
  refine (matmul_zero_eq_mm dot_S5000x16_S16x1_S5000x1_1_0_0_1_n_n rfl rfl rfl rfl rfl rfl none _ W).trans ?_
  refine congrArg (fun G => mm G W) ?_
  refine (congrArg (fun Y => maximumf (addf Y (broadcastTo S5000x16 b broadcasts_S1x16_S5000x16))
      (broadcast S5000x16 (Scalar.ofBits (F := Ideal) .f32 0x00000000#32)))
    (vecScaleL s A broadcasts_S5000x1_S5000x16)).trans ?_
  exact vecReluBias (scaleL s A) b broadcasts_S1x16_S5000x16

end Cert.KernelIdeal.RegionVals

end
-- ==== Proof.RegionVal0.lean ====
/-
  The first region's output array, whole: the row-scaled matrix product of the arrays the region reads.

  The region walks 25 blocks of 4000 rows. At block `t` it reads rows `4000 t … 4000 t + 3999` of the left operand and
  of the one-column factor, all of the right operand, and writes the same rows of the output. The matrix product and the
  row scaling are row-local, so what block `t` writes is rows `4000 t …` of the whole-array function `h0s`; row `r` lies
  in block `r / 4000`, so the blocks cover the array and it ends holding `h0s` of the three arrays.
-/
import proofs.«106833_j76888504533336_2_alg».proof.Proof.Gen.KernelIdeal.Frame
import proofs.«106833_j76888504533336_2_alg».proof.Proof.RegionPay

set_option maxRecDepth 16384

noncomputable section

namespace Cert.KernelIdeal.RegionVals

open Idealize.ShloMosaic Idealize.ShloMosaic.TcCoe Idealize.ShloMosaic.ValueIdx
open Idealize.ShloMosaic.Pipeline (Dat)
open Cert.KernelIdeal Cert.KernelIdeal.Gen Cert.Dense Cert.RowScale Cert.Gcn2

variable (V : (c : Dev nD) → (b : Ref sig .tc) → Buf (Elt Ideal) ((c : Thread nD τ).loc b)) (c : Dev nD)

/-- The zero offsets of a whole-buffer access. -/
theorem zeroOff : (![0, 0] : Fin 2 → Nat) = fun _ => 0 := funext fun a => by fin_cases a <;> rfl

/-- The block index of each window at point `t`: the row-blocked windows are at block `t`, the right operand at its
    one block. -/
theorem firstIdx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row locality: an entry of the row-scaled product of a block of rows is the entry of the whole-array function at
    an index with the same row of the left operand and of the factor and the same column of the right operand. -/
theorem h0s_rows (A0 : Mat 100000 256) (A2 : Mat 256 16) (A15 : Mat 100000 1)
    (X : Mat 4000 256) (W : Mat 256 16) (s : Mat 4000 1) (j : S4000x16.Idx) (i : S100000x16.Idx)
    (hX : ∀ k : Fin 256, X (ix2 (c0 j) k) = A0 (ix2 (c0 i) k))
    (hW : ∀ k : Fin 256, W (ix2 k (c1 j)) = A2 (ix2 k (c1 i)))
    (hs : s (ix2 (c0 j) (0 : Fin 1)) = A15 (ix2 (c0 i) (0 : Fin 1))) :
    scaleRows (mm X W) s j = h0s A0 A2 A15 i :=
  scaleRows_at _ _ _ _ j i (mm_at _ _ _ _ j i hX hW) hs

/-- What point `t` writes back is block `t` of `h0s` of the arrays the region reads. -/
theorem firstFlushed (t : Fin cfg0.N) :
    (dat0 (F := Ideal) V c).flushed 3 t
      = ((cfg0.win 3).blk t).view.read (Elt Ideal)
          (h0s (V c main_arg0 : S100000x256.Idx → EReal) (V c main_arg2 : S256x16.Idx → EReal)
            (V c main_v15 : S100000x1.Idx → EReal)) := by
  show (cfg0.win 3).cut (grid0.coords t) ((dat0 V c).after 3 t) = _
  rw [after0_3]
  unfold out0_3
  rw [View.canon_unit_zero zeroOff]
  simp only [View.ld_unit_zero (S := S4000x256) zeroOff, View.ld_unit_zero (S := S256x16) zeroOff,
    View.ld_unit_zero (S := S4000x1) zeroOff]
  rw [firstBody_eq]
  obtain ⟨e00, e01, e10, e11, e20, e21, e30, e31⟩ := firstIdx t
  funext j
  show scaleRows (mm (iblk0 V c 0 t) (iblk0 V c 1 t)) (iblk0 V c 2 t) j
      = h0s (V c main_arg0) (V c main_arg2) (V c main_v15) (((cfg0.win 3).blk t).view.emb j)
  refine h0s_rows (V c main_arg0) (V c main_arg2) (V c main_v15) (iblk0 V c 0 t) (iblk0 V c 1 t) (iblk0 V c 2 t)
    j (((cfg0.win 3).blk t).view.emb j) (fun k => ?_) (fun k => ?_) ?_
  · show V c main_arg0 (((cfg0.win 0).blk t).view.emb (ix2 (c0 j) k))
        = V c main_arg0 (ix2 (c0 (((cfg0.win 3).blk t).view.emb j)) k)
    refine congrArg (V c main_arg0) (funext fun a => Fin.ext ?_)
    match a with
    | ⟨0, _⟩ =>
      show win0_0.index t (0 : Fin 2) * 4000 + 1 * (j 0).val = win0_3.index t (0 : Fin 2) * 4000 + 1 * (j 0).val
      rw [e00, e30]
    | ⟨1, _⟩ =>
      show win0_0.index t (1 : Fin 2) * 256 + 1 * k.val = k.val
      rw [e01]; omega
  · show V c main_arg2 (((cfg0.win 1).blk t).view.emb (ix2 k (c1 j)))
        = V c main_arg2 (ix2 k (c1 (((cfg0.win 3).blk t).view.emb j)))
    refine congrArg (V c main_arg2) (funext fun a => Fin.ext ?_)
    match a with
    | ⟨0, _⟩ =>
      show win0_1.index t (0 : Fin 2) * 256 + 1 * k.val = k.val
      rw [e10]; omega
    | ⟨1, _⟩ =>
      show win0_1.index t (1 : Fin 2) * 16 + 1 * (j 1).val = win0_3.index t (1 : Fin 2) * 16 + 1 * (j 1).val
      rw [e11, e31]
  · show V c main_v15 (((cfg0.win 2).blk t).view.emb (ix2 (c0 j) (0 : Fin 1)))
        = V c main_v15 (ix2 (c0 (((cfg0.win 3).blk t).view.emb j)) (0 : Fin 1))
    refine congrArg (V c main_v15) (funext fun a => Fin.ext ?_)
    match a with
    | ⟨0, _⟩ =>
      show win0_2.index t (0 : Fin 2) * 4000 + 1 * (j 0).val = win0_3.index t (0 : Fin 2) * 4000 + 1 * (j 0).val
      rw [e20, e30]
    | ⟨1, _⟩ =>
      show win0_2.index t (1 : Fin 2) * 1 + 1 * 0 = 0
      rw [e21]

/-- Every row of the array is in the block of the point its row number divided by the block height names. -/
theorem firstCover (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, e30, e31⟩ := firstIdx t
  refine ⟨t, flush0_3 t, ?_⟩
  show i ∈ ((View.whole main_v16).slice (win0_3.rect t)).set
  rw [View.set_slice_whole, Rect.mem_set_unit]
  intro a
  match a with
  | ⟨0, _⟩ =>
    show win0_3.index t (0 : Fin 2) * 4000 ≤ (i 0).val ∧ (i 0).val < win0_3.index t (0 : Fin 2) * 4000 + 4000
    rw [e30, ht]; omega
  | ⟨1, _⟩ =>
    show win0_3.index t (1 : Fin 2) * 16 ≤ (i 1).val ∧ (i 1).val < win0_3.index t (1 : Fin 2) * 16 + 16
    rw [e31]; omega

/-- The output array after the region. -/
theorem region0_val :
    (dat0 (F := Ideal) V c).arrAt 3 cfg0.N
      = h0s (V c main_arg0 : S100000x256.Idx → EReal) (V c main_arg2 : S256x16.Idx → EReal)
          (V c main_v15 : S100000x1.Idx → EReal) :=
  (dat0 (F := Ideal) V c).arrAt_eq_of_cover 3 _ (fun t _ => firstFlushed V c t) firstCover

end Cert.KernelIdeal.RegionVals

end
-- ==== Proof.RegionVal1.lean ====
/-
  The second region's output array, whole: post-scale, bias, rectify, project, pre-scale of the arrays the region reads.

  The region walks 20 blocks of 5000 rows. At block `t` it reads rows `5000 t … 5000 t + 4999` of the aggregated
  array and of the one-column factor, all of the bias row and of the weight column, and writes the same rows of the
  one-column output. Every layer of the body is row-local, so what block `t` writes is rows `5000 t …` of the
  whole-array function `h1s`; row `r` lies in block `r / 5000`, so the blocks cover the array and it ends holding
  `h1s` of the four arrays.
-/
import proofs.«106833_j76888504533336_2_alg».proof.Proof.Gen.KernelIdeal.Frame
import proofs.«106833_j76888504533336_2_alg».proof.Proof.RegionPay

set_option maxRecDepth 16384

noncomputable section

namespace Cert.KernelIdeal.RegionVals

open Idealize.ShloMosaic Idealize.ShloMosaic.TcCoe Idealize.ShloMosaic.ValueIdx
open Idealize.ShloMosaic.Pipeline (Dat)
open Cert.KernelIdeal Cert.KernelIdeal.Gen Cert.Dense Cert.RowScale Cert.Gcn2

variable (V : (c : Dev nD) → (b : Ref sig .tc) → Buf (Elt Ideal) ((c : Thread nD τ).loc b)) (c : Dev nD)

/-- The zero offsets of a whole-buffer access. -/
theorem zeroOff' : (![0, 0] : Fin 2 → Nat) = fun _ => 0 := funext fun a => by fin_cases a <;> rfl

/-- The block index of each window at point `t`: the row-blocked windows are at block `t`, the bias row and the
    weight column at their one block. -/
theorem secondIdx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The left row scaling at an index depends on the entry there and on the row's factor. -/
theorem scaleL_at {M M' N N' : ℕ} (s : Mat M 1) (G : Mat M N) (s' : Mat M' 1) (G' : Mat M' N')
    (j : (⟨2, ![M', N']⟩ : Shape).Idx) (i : (⟨2, ![M, N]⟩ : Shape).Idx)
    (hs : s' (ix2 (c0 j) (0 : Fin 1)) = s (ix2 (c0 i) (0 : Fin 1))) (hG : G' j = G i) :
    scaleL s' G' j = scaleL s G i := by
  unfold scaleL; rw [hs, hG]

/-- Row locality: an entry of the second body's value on a block of rows is the entry of the whole-array function at an
    index with the same row of the aggregated array and of the factor; the bias row and the weight column are shared. -/
theorem h1s_rows (A26 : Mat 100000 16) (A15 : Mat 100000 1) (b : Mat 1 16) (W : Mat 16 1)
    (X : Mat 5000 16) (s : Mat 5000 1) (j : S5000x1.Idx) (i : S100000x1.Idx)
    (hX : ∀ k : Fin 16, X (ix2 (c0 j) k) = A26 (ix2 (c0 i) k))
    (hs : s (ix2 (c0 j) (0 : Fin 1)) = A15 (ix2 (c0 i) (0 : Fin 1)))
    (hq : c1 j = c1 i) :
    scaleRows (mm (reluBias (scaleL s X) b) W) s j = h1s A26 A15 b W i := by
  refine scaleRows_at _ _ _ _ j i (mm_at _ _ _ _ j i (fun k => ?_) (fun k => by rw [hq])) hs
  exact reluBias_at _ _ _ _ (ix2 (c0 j) k) (ix2 (c0 i) k)
    (scaleL_at _ _ _ _ (ix2 (c0 j) k) (ix2 (c0 i) k) hs (hX k)) rfl

/-- What point `t` writes back is block `t` of `h1s` of the arrays the region reads. -/
theorem secondFlushed (t : Fin cfg1.N) :
    (dat1 (F := Ideal) V c).flushed 4 t
      = ((cfg1.win 4).blk t).view.read (Elt Ideal)
          (h1s (V c main_v26 : S100000x16.Idx → EReal) (V c main_v15 : S100000x1.Idx → EReal)
            (V c main_v27 : S1x16.Idx → EReal) (V c main_arg4 : S16x1.Idx → EReal)) := by
  show (cfg1.win 4).cut (grid1.coords t) ((dat1 V c).after 4 t) = _
  rw [after1_4]
  unfold out1_4
  rw [View.canon_unit_zero zeroOff']
  simp only [View.ld_unit_zero (S := S5000x16) zeroOff', View.ld_unit_zero (S := S5000x1) zeroOff',
    View.ld_unit_zero (S := S1x16) zeroOff', View.ld_unit_zero (S := S16x1) zeroOff']
  rw [secondBody_eq]
  obtain ⟨e00, e01, e10, e11, e20, e21, e30, e31, e40, e41⟩ := secondIdx t
  funext j
  show scaleRows (mm (reluBias (scaleL (iblk1 V c 1 t) (iblk1 V c 0 t)) (iblk1 V c 2 t)) (iblk1 V c 3 t)) (iblk1 V c 1 t) j
      = h1s (V c main_v26) (V c main_v15) (V c main_v27) (V c main_arg4) (((cfg1.win 4).blk t).view.emb j)
  have hb : iblk1 V c 2 t = V c main_v27 := by
    funext y
    show V c main_v27 (((cfg1.win 2).blk t).view.emb y) = V c main_v27 y
    refine congrArg (V c main_v27) (funext fun a => Fin.ext ?_)
    match a with
    | ⟨0, _⟩ =>
      show win1_2.index t (0 : Fin 2) * 1 + 1 * (y 0).val = (y 0).val
      rw [e20]; omega
    | ⟨1, _⟩ =>
      show win1_2.index t (1 : Fin 2) * 16 + 1 * (y 1).val = (y 1).val
      rw [e21]; omega
  have hw : iblk1 V c 3 t = V c main_arg4 := by
    funext y
    show V c main_arg4 (((cfg1.win 3).blk t).view.emb y) = V c main_arg4 y
    refine congrArg (V c main_arg4) (funext fun a => Fin.ext ?_)
    match a with
    | ⟨0, _⟩ =>
      show win1_3.index t (0 : Fin 2) * 16 + 1 * (y 0).val = (y 0).val
      rw [e30]; omega
    | ⟨1, _⟩ =>
      show win1_3.index t (1 : Fin 2) * 1 + 1 * (y 1).val = (y 1).val
      rw [e31]; omega
  rw [hb, hw]
  refine h1s_rows (V c main_v26) (V c main_v15) (V c main_v27) (V c main_arg4) (iblk1 V c 0 t) (iblk1 V c 1 t)
    j (((cfg1.win 4).blk t).view.emb j) (fun k => ?_) ?_ ?_
  · show V c main_v26 (((cfg1.win 0).blk t).view.emb (ix2 (c0 j) k))
        = V c main_v26 (ix2 (c0 (((cfg1.win 4).blk t).view.emb j)) k)
    refine congrArg (V c main_v26) (funext fun a => Fin.ext ?_)
    match a with
    | ⟨0, _⟩ =>
      show win1_0.index t (0 : Fin 2) * 5000 + 1 * (j 0).val = win1_4.index t (0 : Fin 2) * 5000 + 1 * (j 0).val
      rw [e00, e40]
    | ⟨1, _⟩ =>
      show win1_0.index t (1 : Fin 2) * 16 + 1 * k.val = k.val
      rw [e01]; omega
  · show V c main_v15 (((cfg1.win 1).blk t).view.emb (ix2 (c0 j) (0 : Fin 1)))
        = V c main_v15 (ix2 (c0 (((cfg1.win 4).blk t).view.emb j)) (0 : Fin 1))
    refine congrArg (V c main_v15) (funext fun a => Fin.ext ?_)
    match a with
    | ⟨0, _⟩ =>
      show win1_1.index t (0 : Fin 2) * 5000 + 1 * (j 0).val = win1_4.index t (0 : Fin 2) * 5000 + 1 * (j 0).val
      rw [e10, e40]
    | ⟨1, _⟩ =>
      show win1_1.index t (1 : Fin 2) * 1 + 1 * 0 = 0
      rw [e11]
  · refine Fin.ext ?_
    show (j 1).val = win1_4.index t (1 : Fin 2) * 1 + 1 * (j 1).val
    rw [e41]; omega

/-- Every row of the array is in the block of the point its row number divided by the block height names. -/
theorem secondCover (i : S100000x1.Idx) :
    ∃ t : Fin cfg1.N, (cfg1.win 4).flush t = true ∧ i ∈ ((cfg1.win 4).blk t).view.set := by
  have hi0 : (i 0).val < 100000 := (i 0).isLt
  have hi1 : (i 1).val < 1 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, e40, e41⟩ := secondIdx t
  refine ⟨t, flush1_4 t, ?_⟩
  show i ∈ ((View.whole main_v28).slice (win1_4.rect t)).set
  rw [View.set_slice_whole, Rect.mem_set_unit]
  intro a
  match a with
  | ⟨0, _⟩ =>
    show win1_4.index t (0 : Fin 2) * 5000 ≤ (i 0).val ∧ (i 0).val < win1_4.index t (0 : Fin 2) * 5000 + 5000
    rw [e40, ht]; omega
  | ⟨1, _⟩ =>
    show win1_4.index t (1 : Fin 2) * 1 ≤ (i 1).val ∧ (i 1).val < win1_4.index t (1 : Fin 2) * 1 + 1
    rw [e41]; omega

/-- The output array after the region. -/
theorem region1_val :
    (dat1 (F := Ideal) V c).arrAt 4 cfg1.N
      = h1s (V c main_v26 : S100000x16.Idx → EReal) (V c main_v15 : S100000x1.Idx → EReal)
          (V c main_v27 : S1x16.Idx → EReal) (V c main_arg4 : S16x1.Idx → EReal) :=
  (dat1 (F := Ideal) V c).arrAt_eq_of_cover 4 _ (fun t _ => secondFlushed V c t) secondCover

end Cert.KernelIdeal.RegionVals

end
-- ==== Proof.KValue.lean ====
/-
  The kernel's result as one function of its arguments.

  The result array at the last boundary is read back through the program: the last stretch scales the aggregated
  second-region result by the degree column and adds the second bias; the second region's result is `h1s` of the
  aggregated first-region result; the first region's is `h0s` of the features; the edge vectors and the degree column come
  from the first stretches and pass untouched through everything after them. Altogether the result is `kerOut`.
-/
import proofs.«106833_j76888504533336_2_alg».proof.Proof.KRun
import proofs.«106833_j76888504533336_2_alg».proof.Proof.KStretch
import proofs.«106833_j76888504533336_2_alg».proof.Proof.RegionVal0
import proofs.«106833_j76888504533336_2_alg».proof.Proof.RegionVal1

set_option maxRecDepth 16384

noncomputable section

namespace Cert.KernelIdeal.KValue

open Cert.KernelIdeal Cert.KernelIdeal.Edges Cert.KernelIdeal.KStretch Cert.KernelIdeal.RegionVals
open Idealize.ShloMosaic Idealize.ShloMosaic.TcCoe Idealize.SL.Sem Idealize.ShloMosaic.ValueIdx
open Cert.Dense Cert.RowScale Cert.BiasRow Cert.Gcn2

variable (m : (ℓ : Loc nD τ sig) → Buf (Elt Ideal) ℓ) (ρ : Dev nD → PrngReg) (c : Dev nD)

/-- The edge list's sources, targets and degree factor, from the launch contents of the edge index. -/
abbrev srcV : IVec S3300000 32 := srcOf (m ((c : Thread nD τ).loc main_arg1))
abbrev dstV : IVec S3300000 32 := dstOf (m ((c : Thread nD τ).loc main_arg1))
abbrev disV : FVec Ideal S100000 .f32 := disOf (dstV m c)

/-! ## At the first region's entry -/

theorem W3_v3 : Gen.W3 m ρ c (Proc.devRef .tc main_v3) = srcV m c :=
  (s02_v3 (Gen.W2 m ρ c)).trans ((s01_v3 (Gen.W1 m ρ c)).trans (s0_v3 (Gen.W0 m ρ c)))
theorem W3_v6 : Gen.W3 m ρ c (Proc.devRef .tc main_v6) = dstV m c :=
  (s02_v6 (Gen.W2 m ρ c)).trans ((s01_v6 (Gen.W1 m ρ c)).trans (s0_v6 (Gen.W0 m ρ c)))
theorem W3_arg0 : Gen.W3 m ρ c (Proc.devRef .tc main_arg0) = m ((c : Thread nD τ).loc main_arg0) :=
  (s02_arg0 (Gen.W2 m ρ c)).trans ((s01_arg0 (Gen.W1 m ρ c)).trans (s0_arg0 (Gen.W0 m ρ c)))
theorem W3_arg2 : Gen.W3 m ρ c (Proc.devRef .tc main_arg2) = m ((c : Thread nD τ).loc main_arg2) :=
  (s02_arg2 (Gen.W2 m ρ c)).trans ((s01_arg2 (Gen.W1 m ρ c)).trans (s0_arg2 (Gen.W0 m ρ c)))
theorem W3_arg3 : Gen.W3 m ρ c (Proc.devRef .tc main_arg3) = m ((c : Thread nD τ).loc main_arg3) :=
  (s02_arg3 (Gen.W2 m ρ c)).trans ((s01_arg3 (Gen.W1 m ρ c)).trans (s0_arg3 (Gen.W0 m ρ c)))
theorem W3_arg4 : Gen.W3 m ρ c (Proc.devRef .tc main_arg4) = m ((c : Thread nD τ).loc main_arg4) :=
  (s02_arg4 (Gen.W2 m ρ c)).trans ((s01_arg4 (Gen.W1 m ρ c)).trans (s0_arg4 (Gen.W0 m ρ c)))
theorem W3_arg5 : Gen.W3 m ρ c (Proc.devRef .tc main_arg5) = m ((c : Thread nD τ).loc main_arg5) :=
  (s02_arg5 (Gen.W2 m ρ c)).trans ((s01_arg5 (Gen.W1 m ρ c)).trans (s0_arg5 (Gen.W0 m ρ c)))

/-- The called select's result is the degree factor. -/
theorem W2_v14 : Gen.W2 m ρ c (Proc.devRef .tc main_v14) = disV m c := by
  have h12 : Gen.W1 m ρ c (Proc.devRef .tc main_v12) = _ := s0_v12 (Gen.W0 m ρ c)
  have h13 : Gen.W1 m ρ c (Proc.devRef .tc main_v13) = _ := s0_v13 (Gen.W0 m ρ c)
  have hc2 : Gen.W1 m ρ c (Proc.devRef .tc main_cst_2) = _ := s0_cst2 (Gen.W0 m ρ c)
  refine (s01_v14 (Gen.W1 m ρ c)).trans ?_
  rw [h12, h13, hc2]
  rfl
theorem W3_v15 : Gen.W3 m ρ c (Proc.devRef .tc main_v15) = col (disV m c) :=
  (s02_v15 (Gen.W2 m ρ c)).trans (congrArg col (W2_v14 m ρ c))

/-! ## At the first region's exit -/

theorem W4_v16 : Gen.W4 m ρ c (Proc.devRef .tc main_v16)
    = h0s (m ((c : Thread nD τ).loc main_arg0)) (m ((c : Thread nD τ).loc main_arg2)) (col (disV m c)) := by
  refine (Gen.W4_arr m ρ c 3).trans ((region0_val (Gen.V3 m ρ) c).trans ?_)
  show h0s (Gen.W3 m ρ c (Proc.devRef .tc main_arg0)) (Gen.W3 m ρ c (Proc.devRef .tc main_arg2))
    (Gen.W3 m ρ c (Proc.devRef .tc main_v15)) = _
  rw [W3_arg0, W3_arg2, W3_v15]
theorem W4_v3 : Gen.W4 m ρ c (Proc.devRef .tc main_v3) = srcV m c := (Gen.W4_of_ne m ρ c main_v3 (by decide)).trans (W3_v3 m ρ c)
theorem W4_v6 : Gen.W4 m ρ c (Proc.devRef .tc main_v6) = dstV m c := (Gen.W4_of_ne m ρ c main_v6 (by decide)).trans (W3_v6 m ρ c)
theorem W4_v15 : Gen.W4 m ρ c (Proc.devRef .tc main_v15) = col (disV m c) :=
  (Gen.W4_arr m ρ c 2).trans (((Gen.dat0 (Gen.V3 m ρ) c).arrAt_in 2 rfl _).trans ((Gen.A_eq0 (Gen.V3 m ρ) c 2).trans (W3_v15 m ρ c)))
theorem W4_arg3 : Gen.W4 m ρ c (Proc.devRef .tc main_arg3) = m ((c : Thread nD τ).loc main_arg3) :=
  (Gen.W4_of_ne m ρ c main_arg3 (by decide)).trans (W3_arg3 m ρ c)
theorem W4_arg4 : Gen.W4 m ρ c (Proc.devRef .tc main_arg4) = m ((c : Thread nD τ).loc main_arg4) :=
  (Gen.W4_of_ne m ρ c main_arg4 (by decide)).trans (W3_arg4 m ρ c)
theorem W4_arg5 : Gen.W4 m ρ c (Proc.devRef .tc main_arg5) = m ((c : Thread nD τ).loc main_arg5) :=
  (Gen.W4_of_ne m ρ c main_arg5 (by decide)).trans (W3_arg5 m ρ c)

/-! ## At the second region's entry -/

/-- The first layer's aggregate. -/
abbrev agg1 : Mat 100000 16 :=
  agg (h0s (m ((c : Thread nD τ).loc main_arg0)) (m ((c : Thread nD τ).loc main_arg2)) (col (disV m c))) (srcV m c) (dstV m c)

theorem W5_v26 : Gen.W5 m ρ c (Proc.devRef .tc main_v26) = agg1 m c := by
  refine (s1_v26 (Gen.W4 m ρ c)).trans ?_
  rw [W4_v16, W4_v3, W4_v6]
theorem W5_v27 : Gen.W5 m ρ c (Proc.devRef .tc main_v27) = row (m ((c : Thread nD τ).loc main_arg3) : FVec Ideal S16 .f32) := by
  refine (s1_v27 (Gen.W4 m ρ c)).trans ?_
  rw [W4_arg3]
theorem W5_v15 : Gen.W5 m ρ c (Proc.devRef .tc main_v15) = col (disV m c) := (s1_v15 (Gen.W4 m ρ c)).trans (W4_v15 m ρ c)
theorem W5_v3 : Gen.W5 m ρ c (Proc.devRef .tc main_v3) = srcV m c := (s1_v3 (Gen.W4 m ρ c)).trans (W4_v3 m ρ c)
theorem W5_v6 : Gen.W5 m ρ c (Proc.devRef .tc main_v6) = dstV m c := (s1_v6 (Gen.W4 m ρ c)).trans (W4_v6 m ρ c)
theorem W5_arg4 : Gen.W5 m ρ c (Proc.devRef .tc main_arg4) = m ((c : Thread nD τ).loc main_arg4) :=
  (s1_arg4 (Gen.W4 m ρ c)).trans (W4_arg4 m ρ c)
theorem W5_arg5 : Gen.W5 m ρ c (Proc.devRef .tc main_arg5) = m ((c : Thread nD τ).loc main_arg5) :=
  (s1_arg5 (Gen.W4 m ρ c)).trans (W4_arg5 m ρ c)

/-! ## At the second region's exit -/

theorem W6_v28 : Gen.W6 m ρ c (Proc.devRef .tc main_v28)
    = h1s (agg1 m c) (col (disV m c)) (row (m ((c : Thread nD τ).loc main_arg3) : FVec Ideal S16 .f32))
        (m ((c : Thread nD τ).loc main_arg4)) := by
  refine (Gen.W6_arr m ρ c 4).trans ((region1_val (Gen.V5 m ρ) c).trans ?_)
  show h1s (Gen.W5 m ρ c (Proc.devRef .tc main_v26)) (Gen.W5 m ρ c (Proc.devRef .tc main_v15))
    (Gen.W5 m ρ c (Proc.devRef .tc main_v27)) (Gen.W5 m ρ c (Proc.devRef .tc main_arg4)) = _
  rw [W5_v26, W5_v15, W5_v27, W5_arg4]
theorem W6_v15 : Gen.W6 m ρ c (Proc.devRef .tc main_v15) = col (disV m c) :=
  (Gen.W6_arr m ρ c 1).trans (((Gen.dat1 (Gen.V5 m ρ) c).arrAt_in 1 rfl _).trans ((Gen.A_eq1 (Gen.V5 m ρ) c 1).trans (W5_v15 m ρ c)))
theorem W6_v3 : Gen.W6 m ρ c (Proc.devRef .tc main_v3) = srcV m c := (Gen.W6_of_ne m ρ c main_v3 (by decide)).trans (W5_v3 m ρ c)
theorem W6_v6 : Gen.W6 m ρ c (Proc.devRef .tc main_v6) = dstV m c := (Gen.W6_of_ne m ρ c main_v6 (by decide)).trans (W5_v6 m ρ c)
theorem W6_arg5 : Gen.W6 m ρ c (Proc.devRef .tc main_arg5) = m ((c : Thread nD τ).loc main_arg5) :=
  (Gen.W6_of_ne m ρ c main_arg5 (by decide)).trans (W5_arg5 m ρ c)

/-! ## The result -/

theorem W7_v42 : Gen.W7 m ρ c (Proc.devRef .tc main_v42)
    = kerOut (disV m c) (srcV m c) (dstV m c) (m ((c : Thread nD τ).loc main_arg0)) (m ((c : Thread nD τ).loc main_arg2))
        (m ((c : Thread nD τ).loc main_arg3)) (m ((c : Thread nD τ).loc main_arg4)) (m ((c : Thread nD τ).loc main_arg5)) := by
  refine (s2_v42 (Gen.W6 m ρ c)).trans ?_
  rw [W6_v15, W6_v28, W6_v3, W6_v6, W6_arg5]
  rfl

/-- THE KERNEL'S RUN: every weakly fair execution terminates, nothing faulting, with the result array at `kerOut` of
    the launch contents of the arguments, and the arguments unchanged. -/
theorem run : θ_run defs (onTc (τ := τ) (main (F := Ideal))) ⟨m, fun _ => 0, ρ⟩ (fun r => ∀ c : Dev nD,
      r.2.mem ((c.tc : Thread nD τ).loc main_v42)
        = kerOut (disV m c) (srcV m c) (dstV m c) (m ((c : Thread nD τ).loc main_arg0)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (W7_v42 m ρ c), (h c).2⟩) (Cert.KernelIdeal.KRun.run_named m ρ)

end Cert.KernelIdeal.KValue

end
-- ==== Proof.RefVal.lean ====
/-
  The reference program's result as the specification's two edge-normalised layers.

  The reference computes, stage by stage: the projection `h = x · W₁`; for every edge `e` the normalisation
  `d (row read by src e) · d (row read by dst e)`, each factor a gather of single entries of the degree factor `d` at
  the wrapped index vector; the gathered rows of `h` scaled by that normalisation (the vector broadcast to a column and
  the column along the rows); the accumulating scatter of those rows into zeros at the targets, which at `(p, q)` is
  the sum over the edges arriving at `p`; the bias row added and the result rectified; the same again with `W₂`, one
  column and the second bias, without the rectifier.  Each stage is read as a whole array: the two products are matrix
  products, the gather and scatter together are the edge-weighted sum `aggW`, the bias stages are `reluBias` and
  `addRow`.  Chained in program order they give `refOut` over the edge list and the degree factor the reference
  computes itself; those are, operation for operation on the same literal shapes, the edge list and the degree factor
  of the kernel's host side, so the two spellings are equal by unfolding.
-/
import proofs.«106833_j76888504533336_2_alg».proof.Proof.RefReadP
import proofs.«106833_j76888504533336_2_alg».proof.Proof.Spec
import proofs.«106833_j76888504533336_2_alg».proof.Proof.HostEdges
import proofs.«106833_j76888504533336_2_alg».proof.Proof.EdgeTerms

noncomputable section

namespace Cert.ReferenceIdeal.RefVal

open Cert.ReferenceIdeal Cert.ReferenceIdeal.Gen Cert.ReferenceIdeal.Read
open Idealize.ShloMosaic Idealize.ShloMosaic.ValueIdx
open Cert.Dense Cert.RowScale Cert.BiasRow Cert.Gcn2

/-! ## The edge normalisation -/

/-- The sources, the targets and the degree factor, as the reference program computes them from the edge index. -/
abbrev srcR (a1 : IVec S2x3200000 32) : EVec := val_main_v3 (F := Ideal) a1
abbrev dstR (a1 : IVec S2x3200000 32) : EVec := val_main_v6 (F := Ideal) a1
abbrev disR (a1 : IVec S2x3200000 32) : Row 100000 := val_main_v14 (F := Ideal) a1

/-- The degree factor gathered at the wrapped sources reads, at edge `e`, the factor of the row the source reads. -/
theorem v22_apply (a1 : IVec S2x3200000 32) (e : Fin 3300000) :
    val_main_v22 (F := Ideal) a1 (ix1 e) = disR a1 (ix1 (readRow (srcR a1 (ix1 e)))) :=
  gatherVec_readRow gather_S100000_S3300000x1_S3300000_n_0_n_n_0_1_1 rfl rfl rfl rfl rfl rfl rfl
    bcast_S3300000_S3300000x1_0 bcast_S_S3300000 (disR a1) (srcR a1) e

/-- The degree factor gathered at the wrapped targets reads, at edge `e`, the factor of the row the target reads. -/
theorem v29_apply (a1 : IVec S2x3200000 32) (e : Fin 3300000) :
    val_main_v29 (F := Ideal) a1 (ix1 e) = disR a1 (ix1 (readRow (dstR a1 (ix1 e)))) :=
  gatherVec_readRow gather_S100000_S3300000x1_S3300000_n_0_n_n_0_1_1 rfl rfl rfl rfl rfl rfl rfl
    bcast_S3300000_S3300000x1_0 bcast_S_S3300000 (disR a1) (dstR a1) e

/-- Their product is the edge's normalisation. -/
theorem v30_apply (a1 : IVec S2x3200000 32) (e : Fin 3300000) :
    val_main_v30 (F := Ideal) a1 (ix1 e) = edgeNorm (disR a1) (srcR a1) (dstR a1) e := by
  rw [val_main_v30_apply, Ideal.mulf_def, v22_apply, v29_apply, edgeNorm]

/-! ## The first layer -/

/-- The first projection is the matrix product. -/
theorem v15_eq (x : FVec Ideal S100000x256 .f32) (w1 : FVec Ideal S256x16 .f32) :
    val_main_v15 (F := Ideal) x w1 = mm x w1 :=
  hostDot_eq_mm _ rfl rfl rfl rfl rfl rfl none x w1

/-- The projection's rows gathered at the wrapped sources: at `(e, q)` the product at the row edge `e` reads. -/
theorem v37_apply (x : FVec Ideal S100000x256 .f32) (a1 : IVec S2x3200000 32) (w1 : FVec Ideal S256x16 .f32)
    (e : Fin 3300000) (q : Fin 16) :
    val_main_v37 (F := Ideal) x a1 w1 (ix2 e q) = mm x w1 (ix2 (readRow (srcR a1 (ix1 e))) q) :=
  (gather_readRow gather_S100000x16_S3300000x1_S3300000x16_1_0_n_n_0_1_116 rfl rfl rfl rfl rfl rfl rfl
    bcast_S3300000_S3300000x1_0 bcast_S_S3300000 (val_main_v15 (F := Ideal) x w1) (srcR a1) e q).trans
    (congrFun (v15_eq x w1) _)

/-- The normalisation vector broadcast to a column and the column along the rows reads, at `(e, q)`, the vector at `e`. -/
theorem v39_apply (a1 : IVec S2x3200000 32) (e : Fin 3300000) (q : Fin 16) :
    val_main_v39 (F := Ideal) a1 (ix2 e q) = val_main_v30 (F := Ideal) a1 (ix1 e) :=
  (Cert.HostLayout.bcast_col_mat (val_main_v38 (F := Ideal) a1) bcast_S3300000x1_S3300000x16_0_1 e q).trans
    (Cert.HostLayout.bcast_vec_col (val_main_v30 (F := Ideal) a1) bcast_S3300000_S3300000x1_0 e (0 : Fin 1))

/-- The scaled gathered rows. -/
theorem v40_apply (x : FVec Ideal S100000x256 .f32) (a1 : IVec S2x3200000 32) (w1 : FVec Ideal S256x16 .f32)
    (e : Fin 3300000) (q : Fin 16) :
    val_main_v40 (F := Ideal) x a1 w1 (ix2 e q)
      = mm x w1 (ix2 (readRow (srcR a1 (ix1 e))) q) * edgeNorm (disR a1) (srcR a1) (dstR a1) e := by
  rw [val_main_v40_apply, Ideal.mulf_def, v37_apply, v39_apply, v30_apply]

/-- Scattered into zeros at the targets they are the edge-weighted sum of the projection. -/
theorem v43_eq (x : FVec Ideal S100000x256 .f32) (a1 : IVec S2x3200000 32) (w1 : FVec Ideal S256x16 .f32) :
    val_main_v43 (F := Ideal) x a1 w1 = aggW (mm x w1) (disR a1) (srcR a1) (dstR a1) := by
  funext i
  obtain ⟨p, q, rfl⟩ : ∃ (p : Fin 100000) (q : Fin 16), i = ix2 p q := ⟨i 0, i 1, eq_ix2 i⟩
  rw [aggW_apply]
  refine (scatter_arrivals scatter_S100000x16_S3300000x1_S3300000x16_1_0_0_1 rfl rfl rfl rfl bcast_S_S100000x16
    bcast_S3300000_S3300000x1_0 (dstR a1) (val_main_v40 (F := Ideal) x a1 w1) p q).trans ?_
  exact congrArg (0 + ·) (Finset.sum_congr rfl fun e _ => v40_apply x a1 w1 e q)

/-- The bias row added and the result rectified. -/
theorem v47_eq (x : FVec Ideal S100000x256 .f32) (a1 : IVec S2x3200000 32) (w1 : FVec Ideal S256x16 .f32)
    (b1 : FVec Ideal S16 .f32) :
    val_main_v47 (F := Ideal) x a1 w1 b1 = reluBias (val_main_v43 (F := Ideal) x a1 w1) (row b1) :=
  hostReluBias (val_main_v43 (F := Ideal) x a1 w1) b1 _ _ _

/-! ## The second layer -/

/-- The second projection is the matrix product. -/
theorem v48_eq (x : FVec Ideal S100000x256 .f32) (a1 : IVec S2x3200000 32) (w1 : FVec Ideal S256x16 .f32)
    (b1 : FVec Ideal S16 .f32) (w2 : FVec Ideal S16x1 .f32) :
    val_main_v48 (F := Ideal) x a1 w1 b1 w2 = mm (val_main_v47 (F := Ideal) x a1 w1 b1) w2 :=
  hostDot_eq_mm _ rfl rfl rfl rfl rfl rfl none _ w2

/-- The second layer gathers the degree factor again, at the same wrapped sources and targets. -/
theorem v55_apply (a1 : IVec S2x3200000 32) (e : Fin 3300000) :
    val_main_v55 (F := Ideal) a1 (ix1 e) = disR a1 (ix1 (readRow (srcR a1 (ix1 e)))) :=
  gatherVec_readRow gather_S100000_S3300000x1_S3300000_n_0_n_n_0_1_1 rfl rfl rfl rfl rfl rfl rfl
    bcast_S3300000_S3300000x1_0 bcast_S_S3300000 (disR a1) (srcR a1) e

theorem v62_apply (a1 : IVec S2x3200000 32) (e : Fin 3300000) :
    val_main_v62 (F := Ideal) a1 (ix1 e) = disR a1 (ix1 (readRow (dstR a1 (ix1 e)))) :=
  gatherVec_readRow gather_S100000_S3300000x1_S3300000_n_0_n_n_0_1_1 rfl rfl rfl rfl rfl rfl rfl
    bcast_S3300000_S3300000x1_0 bcast_S_S3300000 (disR a1) (dstR a1) e

/-- The edge's normalisation again. -/
theorem v63_apply (a1 : IVec S2x3200000 32) (e : Fin 3300000) :
    val_main_v63 (F := Ideal) a1 (ix1 e) = edgeNorm (disR a1) (srcR a1) (dstR a1) e := by
  rw [val_main_v63_apply, Ideal.mulf_def, v55_apply, v62_apply, edgeNorm]

/-- The one-column projection's rows gathered at the wrapped sources. -/
theorem v70_apply (x : FVec Ideal S100000x256 .f32) (a1 : IVec S2x3200000 32) (w1 : FVec Ideal S256x16 .f32)
    (b1 : FVec Ideal S16 .f32) (w2 : FVec Ideal S16x1 .f32) (e : Fin 3300000) (u : Fin 1) :
    val_main_v70 (F := Ideal) x a1 w1 b1 w2 (ix2 e u)
      = val_main_v48 (F := Ideal) x a1 w1 b1 w2 (ix2 (readRow (srcR a1 (ix1 e))) u) :=
  gather_readRow gather_S100000x1_S3300000x1_S3300000x1_1_0_n_n_0_1_11 rfl rfl rfl rfl rfl rfl rfl
    bcast_S3300000_S3300000x1_0 bcast_S_S3300000 (val_main_v48 (F := Ideal) x a1 w1 b1 w2) (srcR a1) e u

/-- The normalisation vector broadcast to a column reads, at `(e, u)`, the vector at `e`. -/
theorem v71_apply (a1 : IVec S2x3200000 32) (e : Fin 3300000) (u : Fin 1) :
    val_main_v71 (F := Ideal) a1 (ix2 e u) = val_main_v63 (F := Ideal) a1 (ix1 e) :=
  Cert.HostLayout.bcast_vec_col (val_main_v63 (F := Ideal) a1) bcast_S3300000_S3300000x1_0 e u

/-- The scaled gathered entries. -/
theorem v72_apply (x : FVec Ideal S100000x256 .f32) (a1 : IVec S2x3200000 32) (w1 : FVec Ideal S256x16 .f32)
    (b1 : FVec Ideal S16 .f32) (w2 : FVec Ideal S16x1 .f32) (e : Fin 3300000) (u : Fin 1) :
    val_main_v72 (F := Ideal) x a1 w1 b1 w2 (ix2 e u)
      = val_main_v48 (F := Ideal) x a1 w1 b1 w2 (ix2 (readRow (srcR a1 (ix1 e))) u)
        * edgeNorm (disR a1) (srcR a1) (dstR a1) e := by
  rw [val_main_v72_apply, Ideal.mulf_def, v70_apply, v71_apply, v63_apply]

/-- Scattered into zeros at the targets they are the edge-weighted sum of the second projection. -/
theorem v75_eq (x : FVec Ideal S100000x256 .f32) (a1 : IVec S2x3200000 32) (w1 : FVec Ideal S256x16 .f32)
    (b1 : FVec Ideal S16 .f32) (w2 : FVec Ideal S16x1 .f32) :
    val_main_v75 (F := Ideal) x a1 w1 b1 w2
      = aggW (val_main_v48 (F := Ideal) x a1 w1 b1 w2) (disR a1) (srcR a1) (dstR a1) := by
  funext i
  obtain ⟨p, u, rfl⟩ : ∃ (p : Fin 100000) (u : Fin 1), i = ix2 p u := ⟨i 0, i 1, eq_ix2 i⟩
  rw [aggW_apply]
  refine (scatter_arrivals scatter_S100000x1_S3300000x1_S3300000x1_1_0_0_1 rfl rfl rfl rfl bcast_S_S100000x1
    bcast_S3300000_S3300000x1_0 (dstR a1) (val_main_v72 (F := Ideal) x a1 w1 b1 w2) p u).trans ?_
  exact congrArg (0 + ·) (Finset.sum_congr rfl fun e _ => v72_apply x a1 w1 b1 w2 e u)

/-- The second bias row added. -/
theorem v78_eq (x : FVec Ideal S100000x256 .f32) (a1 : IVec S2x3200000 32) (w1 : FVec Ideal S256x16 .f32)
    (b1 : FVec Ideal S16 .f32) (w2 : FVec Ideal S16x1 .f32) (b2 : FVec Ideal S1 .f32) :
    val_main_v78 (F := Ideal) x a1 w1 b1 w2 b2 = addRow (val_main_v75 (F := Ideal) x a1 w1 b1 w2) (row b2) :=
  hostAddRow (val_main_v75 (F := Ideal) x a1 w1 b1 w2) b2 _ _

/-- The reference's last stage is the specification's two edge-normalised layers, over the edge list and the degree
    factor the reference itself computes. -/
theorem v78_refOut (x : FVec Ideal S100000x256 .f32) (a1 : IVec S2x3200000 32) (w1 : FVec Ideal S256x16 .f32)
    (b1 : FVec Ideal S16 .f32) (w2 : FVec Ideal S16x1 .f32) (b2 : FVec Ideal S1 .f32) :
    val_main_v78 (F := Ideal) x a1 w1 b1 w2 b2 = refOut (disR a1) (srcR a1) (dstR a1) x w1 b1 w2 b2 := by
  rw [v78_eq, v75_eq, v48_eq, v47_eq, v43_eq]
  rfl

/-! ## The edge list and the degree factor, and the run's result -/

/-- The reference's edge list and degree factor are the ones the kernel's host side computes: the same operations on
    the same literal shapes. -/
theorem srcR_eq (a1 : IVec S2x3200000 32) : srcR a1 = Cert.KernelIdeal.Edges.srcOf a1 := rfl

/-- The targets likewise. -/
theorem dstR_eq (a1 : IVec S2x3200000 32) : dstR a1 = Cert.KernelIdeal.Edges.dstOf a1 := rfl

/-- The degree factor likewise: ones scattered at the targets, then the guarded reciprocal square root. -/
theorem disR_eq (a1 : IVec S2x3200000 32) :
    disR a1 = Cert.KernelIdeal.Edges.disOf (Cert.KernelIdeal.Edges.dstOf a1) := rfl

/-- The reference's last stage over the kernel side's names for the edge list and the degree factor. -/
theorem v78_refOut_edges (x : FVec Ideal S100000x256 .f32) (a1 : IVec S2x3200000 32) (w1 : FVec Ideal S256x16 .f32)
    (b1 : FVec Ideal S16 .f32) (w2 : FVec Ideal S16x1 .f32) (b2 : FVec Ideal S1 .f32) :
    val_main_v78 (F := Ideal) x a1 w1 b1 w2 b2
      = refOut (Cert.KernelIdeal.Edges.disOf (Cert.KernelIdeal.Edges.dstOf a1)) (Cert.KernelIdeal.Edges.srcOf a1)
          (Cert.KernelIdeal.Edges.dstOf a1) x w1 b1 w2 b2 := by
  rw [v78_refOut, disR_eq, srcR_eq, dstR_eq]

open Idealize.ShloMosaic.TcCoe Idealize.SL.Sem Idealize.ShloMosaic.StableHlo in
/-- THE REFERENCE'S VALUE: the result of the reference program's run, from any launch memory, is the specification's
    two edge-normalised layers of the arguments it was launched with. -/
theorem ref_val (m : (ℓ : Loc nD τ sig) → Buf (Elt Ideal) ℓ) (c : Dev nD) :
    Cert.ReferenceIdeal.Value.res_main_v78 (F := Ideal) m c
      = refOut
          (Cert.KernelIdeal.Edges.disOf (Cert.KernelIdeal.Edges.dstOf (m ((c.tc : Thread nD τ).loc main_arg1))))
          (Cert.KernelIdeal.Edges.srcOf (m ((c.tc : Thread nD τ).loc main_arg1)))
          (Cert.KernelIdeal.Edges.dstOf (m ((c.tc : Thread nD τ).loc main_arg1)))
          (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) :=
  (val_main_v78_eq (F := Ideal) m c).trans (v78_refOut_edges _ _ _ _ _ _)

end Cert.ReferenceIdeal.RefVal

end
-- ==== Proof.lean ====
/-
  A two-layer graph convolution against its reference, on the extended reals.

  Both programs build the same edge list (the given edges, then one self loop per node) and the same degree factor
  `d = 1/√deg` (zero where the degree is not positive). The reference scales the message of every edge by
  `d (src) · d (dst)`, sums the messages at the nodes they arrive at, adds a bias, and does this twice with a rectifier
  between. The kernel scales the ROWS by `d` inside its two matrix-product regions — once before the rows are gathered
  along the edges, once after they are summed — so no per-edge product is ever formed.

  The two agree because, among the edges arriving at a node `p`, the second factor `d (dst)` is the single number `d p`,
  and a nonnegative finite number distributes over a sum of extended reals whatever the summands are. The degree factor
  is such a number for every degree, so the inputs' finiteness is not used.

  The kernel's result is read off its run segment by segment (Proof/KRun, KStretch, RegionVal0, RegionVal1, KValue), the
  reference's off its run one operation at a time (Proof/RefVal); both land on the whole-array functions of Proof/Spec,
  whose `kerOut_eq_refOut` is the law above applied once per layer. The idealized kernel is the kernel's own text read
  at the extended reals: nothing was rewritten, so there is nothing to preserve.
-/
import proofs.«106833_j76888504533336_2_alg».proof.Defs
import proofs.«106833_j76888504533336_2_alg».proof.Proof.Gen.Kernel
import proofs.«106833_j76888504533336_2_alg».proof.Proof.Gen.Kernel.Frame
import proofs.«106833_j76888504533336_2_alg».proof.Proof.Gen.KernelIdeal
import proofs.«106833_j76888504533336_2_alg».proof.Proof.Gen.KernelIdeal.Frame
import proofs.«106833_j76888504533336_2_alg».proof.Proof.Gen.ReferenceIdeal
import proofs.«106833_j76888504533336_2_alg».proof.Proof.Gen.Pre_finite_inputs
import proofs.«106833_j76888504533336_2_alg».proof.Proof.RefRunP
import proofs.«106833_j76888504533336_2_alg».proof.Proof.KValue
import proofs.«106833_j76888504533336_2_alg».proof.Proof.RefVal
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories agreeing on the arguments the kernel ends at `kerOut` and the reference at `refOut` of the same
    arrays, and these are one function. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefVal.ref_val m' c, (hagree c).1, (hagree c).2.1, (hagree c).2.2.1, (hagree c).2.2.2.1,
    (hagree c).2.2.2.2.1, (hagree c).2.2.2.2.2]
  exact (Cert.Gcn2.kerOut_eq_refOut _ _ _ _ _ _ _ _ fun n => Cert.KernelIdeal.Edges.disOf_ok _ n).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
